-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x500000 : Shape := ⟨2, ![2, 500000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x256 .f32) (main_arg1 : IVec S2x500000 32) (main_arg2 : FVec F S256x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x256 : Shape := ⟨2, ![50000, 256]⟩
abbrev S2x500000 : Shape := ⟨2, ![2, 500000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000 : Shape := ⟨1, ![50000]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S50000x128 : Shape := ⟨2, ![50000, 128]⟩
abbrev S5000x256 : Shape := ⟨2, ![5000, 256]⟩
abbrev S5000x128 : Shape := ⟨2, ![5000, 128]⟩
abbrev S550000x128 : Shape := ⟨2, ![550000, 128]⟩
abbrev S1x128 : Shape := ⟨2, ![1, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 88
  | .vmem => 26
  | .smem => 0
  | _ => 0

abbrev bufTy : (tb : Table) → Fin (tcTables nBuf tb) → BufTy
  | .hbm, ⟨0, _⟩ => ⟨S50000x256, .f32⟩
  | .hbm, ⟨1, _⟩ => ⟨S2x500000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x500000, .i32⟩
  | .hbm, ⟨10, _⟩ => ⟨S500000, .i32⟩
  | .hbm, ⟨11, _⟩ => ⟨S550000, .i32⟩
  | .hbm, ⟨12, _⟩ => ⟨S1x500000, .i32⟩
  | .hbm, ⟨13, _⟩ => ⟨S500000, .i32⟩
  | .hbm, ⟨14, _⟩ => ⟨S550000, .i32⟩
  | .hbm, ⟨15, _⟩ => ⟨S_, .f32⟩
  | .hbm, ⟨16, _⟩ => ⟨S550000, .f32⟩
  | .hbm, ⟨17, _⟩ => ⟨S_, .f32⟩
  | .hbm, ⟨18, _⟩ => ⟨S50000, .f32⟩
  | .hbm, ⟨19, _⟩ => ⟨S550000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S550000, .i32⟩
  | .hbm, ⟨31, _⟩ => ⟨S550000, .i1⟩
  | .hbm, ⟨32, _⟩ => ⟨S_, .i32⟩
  | .hbm, ⟨33, _⟩ => ⟨S550000, .i32⟩
  | .hbm, ⟨34, _⟩ => ⟨S550000, .i32⟩
  | .hbm, ⟨35, _⟩ => ⟨S550000, .i32⟩
  | .hbm, ⟨36, _⟩ => ⟨S550000x1, .i32⟩
  | .hbm, ⟨37, _⟩ => ⟨S550000, .f32⟩
  | .hbm, ⟨38, _⟩ => ⟨S_, .i32⟩
  | .hbm, ⟨39, _⟩ => ⟨S550000, .i32⟩
  | .hbm, ⟨40, _⟩ => ⟨S550000, .i1⟩
  | .hbm, ⟨41, _⟩ => ⟨S_, .i32⟩
  | .hbm, ⟨42, _⟩ => ⟨S550000, .i32⟩
  | .hbm, ⟨43, _⟩ => ⟨S550000, .i32⟩
  | .hbm, ⟨44, _⟩ => ⟨S550000, .i32⟩
  | .hbm, ⟨45, _⟩ => ⟨S550000x1, .i32⟩
  | .hbm, ⟨46, _⟩ => ⟨S550000, .f32⟩
  | .hbm, ⟨47, _⟩ => ⟨S550000, .f32⟩
  | .hbm, ⟨48, _⟩ => ⟨S50000x128, .f32⟩
  | .hbm, ⟨49, _⟩ => ⟨S_, .i32⟩
  | .hbm, ⟨50, _⟩ => ⟨S550000, .i32⟩
  | .hbm, ⟨51, _⟩ => ⟨S550000, .i1⟩
  | .hbm, ⟨52, _⟩ => ⟨S_, .i32⟩
  | .hbm, ⟨53, _⟩ => ⟨S550000, .i32⟩
  | .hbm, ⟨54, _⟩ => ⟨S550000, .i32⟩
  | .hbm, ⟨55, _⟩ => ⟨S550000, .i32⟩
  | .hbm, ⟨56, _⟩ => ⟨S550000x1, .i32⟩
  | .hbm, ⟨57, _⟩ => ⟨S550000x128, .f32⟩
  | .hbm, ⟨58, _⟩ => ⟨S550000x1, .f32⟩
  | .hbm, ⟨59, _⟩ => ⟨S550000x128, .f32⟩
  | .hbm, ⟨60, _⟩ => ⟨S550000x128, .f32⟩
  | .hbm, ⟨61, _⟩ => ⟨S_, .f32⟩
  | .hbm, ⟨62, _⟩ => ⟨S50000x128, .f32⟩
  | .hbm, ⟨63, _⟩ => ⟨S550000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S550000, .i32⟩
  | .hbm, ⟨70, _⟩ => ⟨S550000, .i1⟩
  | .hbm, ⟨71, _⟩ => ⟨S_, .i32⟩
  | .hbm, ⟨72, _⟩ => ⟨S550000, .i32⟩
  | .hbm, ⟨73, _⟩ => ⟨S550000, .i32⟩
  | .hbm, ⟨74, _⟩ => ⟨S550000, .i32⟩
  | .hbm, ⟨75, _⟩ => ⟨S550000x1, .i32⟩
  | .hbm, ⟨76, _⟩ => ⟨S550000x128, .f32⟩
  | .hbm, ⟨77, _⟩ => ⟨S550000x1, .f32⟩
  | .hbm, ⟨78, _⟩ => ⟨S550000x128, .f32⟩
  | .hbm, ⟨79, _⟩ => ⟨S550000x128, .f32⟩
  | .hbm, ⟨80, _⟩ => ⟨S_, .f32⟩
  | .hbm, ⟨81, _⟩ => ⟨S50000x128, .f32⟩
  | .hbm, ⟨82, _⟩ => ⟨S550000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S1x64, .f32⟩
  | .hbm, ⟨87, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S5000x256_S256x128_S5000x128_1_0_0_1_n_n_wf : DotDims.WF S5000x256 S256x128 S5000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x500000 : Shape := ⟨2, ![2, 500000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000 : Shape := ⟨1, ![50000]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S50000x128 : Shape := ⟨2, ![50000, 128]⟩
abbrev S550000x128 : Shape := ⟨2, ![550000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 98
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x500000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x500000, .i32⟩
  | .hbm, ⟨10, _⟩ => ⟨S500000, .i32⟩
  | .hbm, ⟨11, _⟩ => ⟨S550000, .i32⟩
  | .hbm, ⟨12, _⟩ => ⟨S1x500000, .i32⟩
  | .hbm, ⟨13, _⟩ => ⟨S500000, .i32⟩
  | .hbm, ⟨14, _⟩ => ⟨S550000, .i32⟩
  | .hbm, ⟨15, _⟩ => ⟨S_, .f32⟩
  | .hbm, ⟨16, _⟩ => ⟨S550000, .f32⟩
  | .hbm, ⟨17, _⟩ => ⟨S_, .f32⟩
  | .hbm, ⟨18, _⟩ => ⟨S50000, .f32⟩
  | .hbm, ⟨19, _⟩ => ⟨S550000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S550000, .i32⟩
  | .hbm, ⟨31, _⟩ => ⟨S550000, .i1⟩
  | .hbm, ⟨32, _⟩ => ⟨S_, .i32⟩
  | .hbm, ⟨33, _⟩ => ⟨S550000, .i32⟩
  | .hbm, ⟨34, _⟩ => ⟨S550000, .i32⟩
  | .hbm, ⟨35, _⟩ => ⟨S550000, .i32⟩
  | .hbm, ⟨36, _⟩ => ⟨S550000x1, .i32⟩
  | .hbm, ⟨37, _⟩ => ⟨S550000, .f32⟩
  | .hbm, ⟨38, _⟩ => ⟨S_, .i32⟩
  | .hbm, ⟨39, _⟩ => ⟨S550000, .i32⟩
  | .hbm, ⟨40, _⟩ => ⟨S550000, .i1⟩
  | .hbm, ⟨41, _⟩ => ⟨S_, .i32⟩
  | .hbm, ⟨42, _⟩ => ⟨S550000, .i32⟩
  | .hbm, ⟨43, _⟩ => ⟨S550000, .i32⟩
  | .hbm, ⟨44, _⟩ => ⟨S550000, .i32⟩
  | .hbm, ⟨45, _⟩ => ⟨S550000x1, .i32⟩
  | .hbm, ⟨46, _⟩ => ⟨S550000, .f32⟩
  | .hbm, ⟨47, _⟩ => ⟨S550000, .f32⟩
  | .hbm, ⟨48, _⟩ => ⟨S50000x128, .f32⟩
  | .hbm, ⟨49, _⟩ => ⟨S_, .i32⟩
  | .hbm, ⟨50, _⟩ => ⟨S550000, .i32⟩
  | .hbm, ⟨51, _⟩ => ⟨S550000, .i1⟩
  | .hbm, ⟨52, _⟩ => ⟨S_, .i32⟩
  | .hbm, ⟨53, _⟩ => ⟨S550000, .i32⟩
  | .hbm, ⟨54, _⟩ => ⟨S550000, .i32⟩
  | .hbm, ⟨55, _⟩ => ⟨S550000, .i32⟩
  | .hbm, ⟨56, _⟩ => ⟨S550000x1, .i32⟩
  | .hbm, ⟨57, _⟩ => ⟨S550000x128, .f32⟩
  | .hbm, ⟨58, _⟩ => ⟨S550000x1, .f32⟩
  | .hbm, ⟨59, _⟩ => ⟨S550000x128, .f32⟩
  | .hbm, ⟨60, _⟩ => ⟨S550000x128, .f32⟩
  | .hbm, ⟨61, _⟩ => ⟨S_, .f32⟩
  | .hbm, ⟨62, _⟩ => ⟨S50000x128, .f32⟩
  | .hbm, ⟨63, _⟩ => ⟨S550000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S550000, .i32⟩
  | .hbm, ⟨74, _⟩ => ⟨S550000, .i1⟩
  | .hbm, ⟨75, _⟩ => ⟨S_, .i32⟩
  | .hbm, ⟨76, _⟩ => ⟨S550000, .i32⟩
  | .hbm, ⟨77, _⟩ => ⟨S550000, .i32⟩
  | .hbm, ⟨78, _⟩ => ⟨S550000, .i32⟩
  | .hbm, ⟨79, _⟩ => ⟨S550000x1, .i32⟩
  | .hbm, ⟨80, _⟩ => ⟨S550000x128, .f32⟩
  | .hbm, ⟨81, _⟩ => ⟨S550000x1, .f32⟩
  | .hbm, ⟨82, _⟩ => ⟨S550000x128, .f32⟩
  | .hbm, ⟨83, _⟩ => ⟨S550000x128, .f32⟩
  | .hbm, ⟨84, _⟩ => ⟨S_, .f32⟩
  | .hbm, ⟨85, _⟩ => ⟨S50000x128, .f32⟩
  | .hbm, ⟨86, _⟩ => ⟨S550000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S50000x64, .f32⟩
  | .hbm, ⟨95, _⟩ => ⟨S1x64, .f32⟩
  | .hbm, ⟨96, _⟩ => ⟨S50000x64, .f32⟩
  | .hbm, ⟨97, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S50000x256_S256x128_S50000x128_1_0_0_1_n_n_wf : DotDims.WF S50000x256 S256x128 S50000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run, with every buffer named.

  @main is eleven segments: stretches of host operations and five tiled calls. The run of the segments ends with every
  TensorCore buffer that outlives a call at the contents the last boundary names (the fold W11 of the generated frame:
  a host stretch applies its operations, a call leaves its arrays at what its tiles' write-backs leave). Read at the
  two result buffers and at the eight arguments, this is the run a value claim needs: the results at W11, the arguments
  as launched.
-/
import proofs.«139841_j77008763617440_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer that outlives a call at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- The run read at the two results and the eight arguments. -/
theorem run : θ_run defs (onTc (τ := τ) (main (F := F))) ⟨m, fun _ => 0, ρ⟩ (fun r => ∀ c : Dev nD,
      r.2.mem ((c.tc : Thread nD τ).loc main_v63) = W11 m ρ c (Proc.devRef .tc main_v63)
      ∧ r.2.mem ((c.tc : Thread nD τ).loc main_v61) = W11 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
      ⟨h c _ (mem_uc main_v63 (by decide)),
       h c _ (mem_uc main_v61 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)
    (run_all m ρ)

end Cert.KernelIdeal.Named

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibMatProd.lean ====
/-
  A matrix product as one function on the extended reals, and the format changes that do not change it.

  General in the extents M, K, N (and, for the gather, in the shapes): nothing here mentions a program.

  `matProd l r` is the rows × contraction by contraction × columns product read entry by entry: the entry at
  (i, j) is the sum over k of l (i, k) · r (k, j). Both printed forms of the product are this function: the host's
  `dot_general` of the whole operands, and a `tpu.matmul` of two operands rounded to a narrower float format and
  accumulated into the zero splat — on the extended reals a change of float format is the identity. A change of format
  around a row gather is the identity too: the gather only re-indexes its operand.
-/
import proofs.«139841_j77008763617440_1_alg».proof.Proof.LibDot
import Idealize.ShloMosaic.Lib.ValueIdx
import Idealize.ShloMosaic.PureOps.Ideal.Laws

noncomputable section

namespace Cert.LibMatProd

open Idealize.ShloMosaic Idealize.ShloMosaic.ValueIdx

variable {M K N : Nat}

/-- The product of an M × K and a K × N matrix of extended reals, entry by entry. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

/-- The host's `dot_general` contracting the left operand's second axis with the right operand's first is the
    product. -/
theorem dotGeneral_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ .f32) (r : FVec Ideal ⟨2, ![K, N]⟩ .f32) :
    Host.dotGeneral d none l r = matProd l r :=
  funext fun y => LibDot.dotGeneral_plain_apply d hlc hrc hln hrn hlb hrb none .single l r y

/-- A `tpu.matmul` of the two operands rounded to bf16, into the zero accumulator, is the product of the operands
    themselves: at an entry. -/
theorem matmul_trunc_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hb : FTy.bits .bf16 < FTy.bits .f32)
    (l : FVec Ideal ⟨2, ![M, K]⟩ .f32) (r : FVec Ideal ⟨2, ![K, N]⟩ .f32) (y : (⟨2, ![M, N]⟩ : Shape).Idx) :
    FloatOps.matmul d none (truncf .bf16 l hb) (truncf .bf16 r hb) (constant ⟨2, ![M, N]⟩ .f32 0x00000000#32) y
      = ∑ k : Fin K, l (ix2 (y 0) k) * r (ix2 k (y 1)) :=
  LibDot.matmul_zero_plain_apply d hlc hrc hln hrn hlb hrb none (truncf .bf16 l hb) (truncf .bf16 r hb) y

variable {s si t : Shape} {w : Nat}

/-- Rounding to a narrower format, gathering rows, and widening again is the gather itself. -/
theorem extf_gather_truncf (d : GatherDims s si t) (hb : FTy.bits .bf16 < FTy.bits .f32)
    (x : FVec Ideal s .f32) (idx : IVec si w) :
    extf .f32 (Host.gather d (truncf .bf16 x hb) idx) hb = Host.gather d x idx :=
  funext fun _ => rfl

end Cert.LibMatProd

end
-- ==== Proof.Layers.lean ====
/-
  The two dense pieces of a graph-convolution layer as plain functions on the extended reals, for any extents.

  rowAct a row     : add the one row of biases to every row of a, then rectify (maximum with zero);
  rowAffine h w row: the matrix product h · w with the one row of biases added to every row.

  Nothing here mentions a program.
-/
import proofs.«139841_j77008763617440_1_alg».proof.Proof.LibMatProd
import Idealize.ShloMosaic.Lib.ValueIdx
import Idealize.ShloMosaic.PureOps.Ideal

noncomputable section

namespace Cert.Layers

open Idealize.ShloMosaic Idealize.ShloMosaic.ValueIdx

variable {N C K : Nat}

/-- Every row of `a` plus the bias row, rectified: entry (p, q) is max (a(p, q) + row(0, q)) 0. -/
def rowAct (a : (⟨2, ![N, C]⟩ : Shape).Idx → EReal) (row : (⟨2, ![1, C]⟩ : Shape).Idx → EReal) :
    (⟨2, ![N, C]⟩ : Shape).Idx → EReal :=
  fun i => max (a i + row (ix2 (0 : Fin 1) (i 1))) (Ideal.ofBits .f32 0x00000000#32)

/-- The product h · w plus the bias row on every row: entry (p, q) is Σ_k h(p, k) · w(k, q) + row(0, q). -/
def rowAffine (h : (⟨2, ![N, K]⟩ : Shape).Idx → EReal) (w : (⟨2, ![K, C]⟩ : Shape).Idx → EReal)
    (row : (⟨2, ![1, C]⟩ : Shape).Idx → EReal) : (⟨2, ![N, C]⟩ : Shape).Idx → EReal :=
  fun i => Cert.LibMatProd.matProd h w i + row (ix2 (0 : Fin 1) (i 1))

end Cert.Layers

end
-- ==== Proof.LibConcat.lean ====
/-
  A concatenation of two pieces with the pieces as arguments.

  `concatenate` takes its operands as a list of (shape, contents) pairs. `concat2` is the two-piece concatenation with
  the two contents as plain arguments — the same function, so that an equation between pieces is an equation between
  concatenations by congruence — and `concat2_fold` says a two-piece `concatenate` is it.
-/
import Idealize.ShloMosaic.PureOps.ShapeOps

namespace Cert.LibConcat

open Idealize.ShloMosaic

/-- The concatenation of `a` and `b` along axis `ax` of the result shape. -/
def concat2 {α : Type} (t : Shape) (ax : Fin t.rank) {s1 s2 : Shape} (a : s1.Idx → α) (b : s2.Idx → α)
    (h : Shape.Concatenates [s1, s2] t ax) : t.Idx → α :=
  concatenate t ax [⟨s1, a⟩, ⟨s2, b⟩] h

/-- A two-piece `concatenate` is `concat2` of its pieces. -/
theorem concat2_fold {α : Type} (t : Shape) (ax : Fin t.rank) {s1 s2 : Shape} (a : s1.Idx → α) (b : s2.Idx → α)
    (h : Shape.Concatenates [s1, s2] t ax) :
    concatenate t ax [⟨s1, a⟩, ⟨s2, b⟩] h = concat2 t ax a b h := rfl

end Cert.LibConcat
-- ==== Proof.Vocab.lean ====
/-
  The graph-convolution network as plain functions of its eight argument arrays, on the extended reals.

  From the edge list e (2 × 500000 node numbers) both programs build the same edge tables, by the same host
  operations: the source and target lists with one self loop per node appended (src, dst: 550000 entries), the target
  degrees deg, their inverse square roots where the degree is positive and zero elsewhere (dis), and the edge weights
  nrm = dis[src] · dis[dst] (node numbers wrapped by wrap: a negative number counts from the end). A layer's
  aggregation aggr h adds, into row dst(k), row src(k) of h times nrm(k), over the 550000 edges. These are kept as
  the host operations both programs print: the certificate never looks inside a gather or a scatter.

  A hidden layer is then rowAct (aggr (h · W)) (bias row): the dense product, the aggregation, the bias added to
  every row, the rectifier; the decoder is rowAffine h Wd (bias row). hidden2 and out are the two results of the
  network.
-/
import proofs.«139841_j77008763617440_1_alg».proof.KernelIdeal
import proofs.«139841_j77008763617440_1_alg».proof.Proof.Gen.KernelIdeal
import proofs.«139841_j77008763617440_1_alg».proof.Proof.Layers
import proofs.«139841_j77008763617440_1_alg».proof.Proof.LibConcat
import Idealize.ShloMosaic.PureOps.Ideal

noncomputable section

namespace Cert.Gcn

open Cert.KernelIdeal Cert.KernelIdeal.Gen Idealize.ShloMosaic Cert.LibConcat Cert.Layers Cert.LibMatProd

/-- Row `r` (0 or 1) of the edge list followed by the 50000 node numbers 0, 1, …: the edges and the self loops. -/
def ends (off : Fin 2 → Nat) (hs : S2x500000.Slices off S1x500000) (e : IVec S2x500000 32) : IVec S550000 32 :=
  concat2 S550000 0 (shapeCast S500000 (extractStridedSlice S1x500000 off e hs) shapeCasts_S1x500000_S500000)
    (iotaInDim S50000 32 0) concatenates_S500000_S50000_S550000_d0

/-- The edges' source nodes. -/
def src (e : IVec S2x500000 32) : IVec S550000 32 := ends ![0, 0] slices_S2x500000_S1x500000_0_0 e
/-- The edges' target nodes. -/
def dst (e : IVec S2x500000 32) : IVec S550000 32 := ends ![1, 0] slices_S2x500000_S1x500000_1_0 e

/-- The number of edges into each node: ones scattered onto zeros at the targets. -/
def deg (e : IVec S2x500000 32) : FVec Ideal S50000 .f32 :=
  Host.scatterAdd scatter_S50000_S550000x1_S550000_n_0_0_1
    (broadcastInDim S50000 ![] bcast_S_S50000 (constant S_ .f32 0x00000000#32))
    (broadcastInDim S550000x1 ![0] bcast_S550000_S550000x1_0 (dst e))
    (broadcastInDim S550000 ![] bcast_S_S550000 (constant S_ .f32 0x3F800000#32))

/-- deg^(-1/2) where the degree is positive, zero elsewhere. -/
def dis (e : IVec S2x500000 32) : FVec Ideal S50000 .f32 :=
  select (cmpf .ogt (deg e) (broadcastInDim S50000 ![] bcast_S_S50000 (constant S_ .f32 0x00000000#32)))
    (Host.rsqrt (deg e))
    (broadcastInDim S50000 ![] bcast_S_S50000 (id (constant S_ .f32 0x00000000#32)))

/-- A node number as an index: a negative number counts from the end. -/
def wrap (v : IVec S550000 32) : IVec S550000 32 :=
  select (cmpi .slt v (broadcastInDim S550000 ![] bcast_S_S550000 (constantI S_ 32 0#32)))
    (addi v (broadcastInDim S550000 ![] bcast_S_S550000 (constantI S_ 32 50000#32))) v

/-- The edge weights dis[src] · dis[dst]. -/
def nrm (e : IVec S2x500000 32) : FVec Ideal S550000 .f32 :=
  mulf
    (Host.gather gather_S50000_S550000x1_S550000_n_0_n_n_0_1_1 (dis e)
      (broadcastInDim S550000x1 ![0] bcast_S550000_S550000x1_0 (wrap (src e))))
    (Host.gather gather_S50000_S550000x1_S550000_n_0_n_n_0_1_1 (dis e)
      (broadcastInDim S550000x1 ![0] bcast_S550000_S550000x1_0 (wrap (dst e))))

/-- One aggregation over the edges: into row d(k), row s(k) of h times n(k), onto zeros. -/
def aggr (h : FVec Ideal S50000x128 .f32) (s d : IVec S550000 32) (n : FVec Ideal S550000 .f32) :
    FVec Ideal S50000x128 .f32 :=
  Host.scatterAdd scatter_S50000x128_S550000x1_S550000x128_1_0_0_1
    (broadcastInDim S50000x128 ![] bcast_S_S50000x128 (constant S_ .f32 0x00000000#32))
    (broadcastInDim S550000x1 ![0] bcast_S550000_S550000x1_0 d)
    (mulf
      (Host.gather gather_S50000x128_S550000x1_S550000x128_1_0_n_n_0_1_1128 h
        (broadcastInDim S550000x1 ![0] bcast_S550000_S550000x1_0 (wrap s)))
      (broadcastInDim S550000x128 ![0, 1] bcast_S550000x1_S550000x128_0_1
        (broadcastInDim S550000x1 ![0] bcast_S550000_S550000x1_0 n)))

/-- The first hidden layer. -/
def hidden1 (x : FVec Ideal S50000x256 .f32) (e : IVec S2x500000 32) (W1 : FVec Ideal S256x128 .f32)
    (b1 : FVec Ideal S128 .f32) : FVec Ideal S50000x128 .f32 :=
  rowAct (aggr (matProd (M := 50000) (K := 256) (N := 128) x W1) (src e) (dst e) (nrm e))
    (shapeCast S1x128 b1 shapeCasts_S128_S1x128)

/-- The second hidden layer: the network's second result. -/
def hidden2 (x : FVec Ideal S50000x256 .f32) (e : IVec S2x500000 32) (W1 : FVec Ideal S256x128 .f32)
    (b1 : FVec Ideal S128 .f32) (W2 : FVec Ideal S128x128 .f32) (b2 : FVec Ideal S128 .f32) :
    FVec Ideal S50000x128 .f32 :=
  rowAct (aggr (matProd (M := 50000) (K := 128) (N := 128) (hidden1 x e W1 b1) W2) (src e) (dst e) (nrm e))
    (shapeCast S1x128 b2 shapeCasts_S128_S1x128)

/-- The decoder on the second hidden layer: the network's first result. -/
def out (x : FVec Ideal S50000x256 .f32) (e : IVec S2x500000 32) (W1 : FVec Ideal S256x128 .f32)
    (b1 : FVec Ideal S128 .f32) (W2 : FVec Ideal S128x128 .f32) (b2 : FVec Ideal S128 .f32)
    (Wd : FVec Ideal S128x64 .f32) (bd : FVec Ideal S64 .f32) : FVec Ideal S50000x64 .f32 :=
  rowAffine (N := 50000) (K := 128) (C := 64) (hidden2 x e W1 b1 W2 b2) Wd (shapeCast S1x64 bd shapeCasts_S64_S1x64)

end Cert.Gcn

end
-- ==== Proof.LibTRef.lean ====
/-
  A typed reference's two transports cancel.

  A typed reference to a host buffer carries the equation between the buffer's recorded type and the value's type; an
  operation stated over typed references carries contents of the value's type into the buffer's type on the way in and back
  on the way out. Carrying a value in and straight back out is the identity, whatever the equation's proof.
-/
import Idealize.ShloMosaic.Lib.StableHlo

namespace Cert.LibTRef

open Idealize.ShloMosaic Idealize.ShloMosaic.StableHlo

/-- Contents carried into a typed reference's buffer type and back out are the contents. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTRef
-- ==== Proof.BeforeCalls.lean ====
/-
  The idealized kernel's buffers before its first tiled call.

  @main first builds the edge tables with host operations — in three stretches, the middle one the inlined
  `where` — and touches no argument. Read back one stretch at a time, the buffers hold: the source and target lists
  with the self loops appended, the inverse square roots of the degrees (zero where the degree is not positive), and
  the edge weights; every argument still holds its launch contents.
-/
import proofs.«139841_j77008763617440_1_alg».proof.Proof.Gen.KernelIdeal.Frame
import proofs.«139841_j77008763617440_1_alg».proof.Proof.Vocab
import proofs.«139841_j77008763617440_1_alg».proof.Proof.LibConcat
import proofs.«139841_j77008763617440_1_alg».proof.Proof.LibTRef
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Cert.Gcn Cert.LibConcat Cert.LibMatProd Cert.Layers

variable (m : (ℓ : Loc nD τ sig) → Buf (Elt Ideal) ℓ) (ρ : Dev nD → PrngReg) (c : Dev nD)

/-! ## After the first stretch -/

theorem A_v3 : W1 m ρ c (Proc.devRef .tc main_v3) = src (m ((c : Thread nD τ).loc main_arg1)) := by
  show StableHlo.after hostOps0 (W0 m ρ c) (Proc.devRef .tc main_v3) = _
  dsimp only [hostOps0]
  after_results
  rw [concat2_fold]
  after_results
  rfl

theorem A_v6 : W1 m ρ c (Proc.devRef .tc main_v6) = dst (m ((c : Thread nD τ).loc main_arg1)) := by
  show StableHlo.after hostOps0 (W0 m ρ c) (Proc.devRef .tc main_v6) = _
  dsimp only [hostOps0]
  after_results
  rw [concat2_fold]
  after_results
  rfl

theorem A_v10 : W1 m ρ c (Proc.devRef .tc main_v10) = deg (m ((c : Thread nD τ).loc main_arg1)) := by
  show StableHlo.after hostOps0 (W0 m ρ c) (Proc.devRef .tc main_v10) = _
  dsimp only [hostOps0]
  after_results
  rw [concat2_fold]
  after_results
  rfl

theorem A_v12 : W1 m ρ c (Proc.devRef .tc main_v12)
    = cmpf .ogt (deg (m ((c : Thread nD τ).loc main_arg1))) (broadcastInDim S50000 ![] bcast_S_S50000 (constant (F := Ideal) S_ .f32 0x00000000#32)) := by
  show StableHlo.after hostOps0 (W0 m ρ c) (Proc.devRef .tc main_v12) = _
  dsimp only [hostOps0]
  after_results
  rw [concat2_fold]
  after_results
  rfl

theorem A_v13 : W1 m ρ c (Proc.devRef .tc main_v13) = Host.rsqrt (deg (m ((c : Thread nD τ).loc main_arg1))) := by
  show StableHlo.after hostOps0 (W0 m ρ c) (Proc.devRef .tc main_v13) = _
  dsimp only [hostOps0]
  after_results
  rw [concat2_fold]
  after_results
  rfl

theorem A_cst : W1 m ρ c (Proc.devRef .tc main_cst_2) = constant (F := Ideal) S_ .f32 0x00000000#32 := by
  show StableHlo.after hostOps0 (W0 m ρ c) (Proc.devRef .tc main_cst_2) = _
  dsimp only [hostOps0]
  after_results

/-! ## After the inlined `where` -/

theorem B_v14 : W2 m ρ c (Proc.devRef .tc main_v14) = dis (m ((c : Thread nD τ).loc main_arg1)) := by
  have h12 := A_v12 m ρ c
  have h13 := A_v13 m ρ c
  have hc := A_cst m ρ c
  show StableHlo.after hostOps0_1 (W1 m ρ c) (Proc.devRef .tc main_v14) = _
  generalize W1 m ρ c = X at h12 h13 hc ⊢
  dsimp only [hostOps0_1]
  after_results
  show select (X (Proc.devRef .tc main_v12)) (X (Proc.devRef .tc main_v13))
      (broadcastInDim S50000 ![] bcast_S_S50000 (id (X (Proc.devRef .tc main_cst_2)))) = _
  rw [h12, h13, hc]
  rfl

theorem B_v3 : W2 m ρ c (Proc.devRef .tc main_v3) = src (m ((c : Thread nD τ).loc main_arg1)) := by
  have h := A_v3 m ρ c
  show StableHlo.after hostOps0_1 (W1 m ρ c) (Proc.devRef .tc main_v3) = _
  generalize W1 m ρ c = X at h ⊢
  dsimp only [hostOps0_1]
  after_results_simp
  exact h

theorem B_v6 : W2 m ρ c (Proc.devRef .tc main_v6) = dst (m ((c : Thread nD τ).loc main_arg1)) := by
  have h := A_v6 m ρ c
  show StableHlo.after hostOps0_1 (W1 m ρ c) (Proc.devRef .tc main_v6) = _
  generalize W1 m ρ c = X at h ⊢
  dsimp only [hostOps0_1]
  after_results_simp
  exact h

/-! ## After the third stretch: the edge tables -/

theorem C_v29 : W3 m ρ c (Proc.devRef .tc main_v29) = nrm (m ((c : Thread nD τ).loc main_arg1)) := by
  have h14 := B_v14 m ρ c
  have h3 := B_v3 m ρ c
  have h6 := B_v6 m ρ c
  show StableHlo.after hostOps0_2 (W2 m ρ c) (Proc.devRef .tc main_v29) = _
  generalize W2 m ρ c = X at h14 h3 h6 ⊢
  dsimp only [hostOps0_2]
  after_results_simp
  rw [h14, h3, h6]
  rfl

theorem C_v3 : W3 m ρ c (Proc.devRef .tc main_v3) = src (m ((c : Thread nD τ).loc main_arg1)) := by
  have h := B_v3 m ρ c
  show StableHlo.after hostOps0_2 (W2 m ρ c) (Proc.devRef .tc main_v3) = _
  generalize W2 m ρ c = X at h ⊢
  dsimp only [hostOps0_2]
  after_results_simp
  exact h

theorem C_v6 : W3 m ρ c (Proc.devRef .tc main_v6) = dst (m ((c : Thread nD τ).loc main_arg1)) := by
  have h := B_v6 m ρ c
  show StableHlo.after hostOps0_2 (W2 m ρ c) (Proc.devRef .tc main_v6) = _
  generalize W2 m ρ c = X at h ⊢
  dsimp only [hostOps0_2]
  after_results_simp
  exact h

/-- The three edge tables as the first tiled call finds them. -/
theorem C_tables : W3 m ρ c (Proc.devRef .tc main_v3) = src (m ((c : Thread nD τ).loc main_arg1)) ∧ W3 m ρ c (Proc.devRef .tc main_v6) = dst (m ((c : Thread nD τ).loc main_arg1)) ∧ W3 m ρ c (Proc.devRef .tc main_v29) = nrm (m ((c : Thread nD τ).loc main_arg1)) :=
  ⟨C_v3 m ρ c, C_v6 m ρ c, C_v29 m ρ c⟩

/-! ## The arguments, untouched by the three stretches -/

theorem C_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  dsimp only [hostOps0, hostOps0_1, hostOps0_2]
  after_results_simp

theorem C_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  dsimp only [hostOps0, hostOps0_1, hostOps0_2]
  after_results_simp

theorem C_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  dsimp only [hostOps0, hostOps0_1, hostOps0_2]
  after_results_simp

theorem C_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  dsimp only [hostOps0, hostOps0_1, hostOps0_2]
  after_results_simp

end Cert.KernelIdeal.Chain

end
-- ==== Proof.ProductOne.lean ====
/-
  The first dense product, x · W1, tile by tile.

  The node axis of 50000 rows is cut into ten tiles of 5000 rows. At tile t the body multiplies rows
  5000 t … 5000 t + 4999 of x (all 256 columns) by the whole of W1 and writes rows 5000 t … 5000 t + 4999 of the
  result. On the extended reals rounding the two factors to a narrower float format changes nothing, and the
  matrix unit's product into a zero accumulator is the plain sum over the contracted coordinate; so entry (p, q) of
  tile t is Σ_k x(5000 t + p, k) · W1(k, q), which is entry (5000 t + p, q) of the whole product. The ten tiles cover
  every row, hence the array the ten write-backs leave is the whole product.
-/
import proofs.«139841_j77008763617440_1_alg».proof.Proof.Gen.KernelIdeal.Frame
import proofs.«139841_j77008763617440_1_alg».proof.Proof.LibMatProd
import Idealize.ShloMosaic.Lib.Pipeline.Value
import Idealize.ShloMosaic.Lib.ValueIdx

noncomputable section

namespace Cert.KernelIdeal.ProductOne

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the sum over the contracted coordinate of the two loaded blocks (rounding
    the factors to a narrower format is the identity on the extended reals). -/
theorem pay_apply (x0 : Vec Ideal S5000x256 .f32) (x1 : Vec Ideal S256x128 .f32) (j : S5000x128.Idx) :
    k0_pay1 x0 x1 j = ∑ k : Fin 256, x0 (ix2 (j 0) k) * x1 (ix2 k (j 1)) := by
  exact Cert.LibMatProd.matmul_trunc_apply dot_S5000x256_S256x128_S5000x128_1_0_0_1_n_n rfl rfl rfl rfl rfl rfl
    bitsLt_bf16_f32 x0 x1 j

/-- The printed index maps over the ten tiles: the row tile of the left factor and of the result is the tile's
    number, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What tile t writes back is rows 5000 t … 5000 t + 4999 of the whole product of the arrays the call is entered
    with. -/
theorem flushed_eq (c : Dev nD) (t : Fin cfg0.N) :
    (dat0 V c).flushed 2 t = ((cfg0.win 2).blk t).view.read (Elt Ideal)
      (Cert.LibMatProd.matProd (M := 50000) (K := 256) (N := 128) (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  funext j
  show k0_pay1 (iblk0 V c 0 t) (iblk0 V c 1 t) j
    = Cert.LibMatProd.matProd (M := 50000) (K := 256) (N := 128) (V c main_arg0) (V c main_arg2)
        (((cfg0.win 2).blk t).view.emb j)
  refine (pay_apply (iblk0 V c 0 t) (iblk0 V c 1 t) j).trans ?_
  unfold Cert.LibMatProd.matProd
  refine Finset.sum_congr rfl fun k _ => ?_
  obtain ⟨e0, e1, e2, e3, e4, e5⟩ := idx_facts t
  have hl : ((cfg0.win 0).blk t).view.emb (ix2 (n0 := 5000) (n1 := 256) (j 0) k)
      = ix2 (n0 := 50000) (n1 := 256) ((((cfg0.win 2).blk t).view.emb j) 0) k := by
    funext a; apply Fin.ext
    match a with
    | ⟨0, _⟩ =>
      show win0_0.index t (0 : Fin 2) * 5000 + 1 * (j 0).val = win0_2.index t (0 : Fin 2) * 5000 + 1 * (j 0).val
      omega
    | ⟨1, _⟩ => show win0_0.index t (1 : Fin 2) * 256 + 1 * k.val = k.val; omega
  have hr : ((cfg0.win 1).blk t).view.emb (ix2 (n0 := 256) (n1 := 128) k (j 1))
      = ix2 (n0 := 256) (n1 := 128) k ((((cfg0.win 2).blk t).view.emb j) 1) := by
    funext a; apply Fin.ext
    match a with
    | ⟨0, _⟩ => show win0_1.index t (0 : Fin 2) * 256 + 1 * k.val = k.val; omega
    | ⟨1, _⟩ =>
      show win0_1.index t (1 : Fin 2) * 128 + 1 * (j 1).val = win0_2.index t (1 : Fin 2) * 128 + 1 * (j 1).val
      omega
  have h1 : iblk0 V c 0 t (ix2 (n0 := 5000) (n1 := 256) (j 0) k)
      = (V c main_arg0 : S50000x256.Idx → EReal) (ix2 (n0 := 50000) (n1 := 256) ((((cfg0.win 2).blk t).view.emb j) 0) k) :=
    congrArg (V c main_arg0 : S50000x256.Idx → EReal) hl
  have h2 : iblk0 V c 1 t (ix2 (n0 := 256) (n1 := 128) k (j 1))
      = (V c main_arg2 : S256x128.Idx → EReal) (ix2 (n0 := 256) (n1 := 128) k ((((cfg0.win 2).blk t).view.emb j) 1)) :=
    congrArg (V c main_arg2 : S256x128.Idx → EReal) hr
  rw [h1, h2]

/-- An index of the result is in tile t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Row r lies in tile r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨e0, e1, e2, e3, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

/-- The array the ten write-backs leave is the whole product of the two arrays the call is entered with. -/
theorem final (c : Dev nD) :
    (dat0 V c).arrAt 2 cfg0.N
      = Cert.LibMatProd.matProd (M := 50000) (K := 256) (N := 128) (V c main_arg0) (V c main_arg2) :=
  (dat0 V c).arrAt_eq_of_cover 2 _ (fun t _ => flushed_eq V c t) cover

end Cert.KernelIdeal.ProductOne

end
-- ==== Proof.ActOne.lean ====
/-
  The first layer's bias and rectifier, tile by tile.

  The aggregated array (50000 × 128) is cut into ten tiles of 5000 rows; the bias is one row of 128 entries, read
  whole at every tile. Tile t adds the bias row to each of its rows and takes the maximum with zero. Entry (p, q)
  of tile t is max (a(5000 t + p, q) + bias(0, q)) 0, which is entry (5000 t + p, q) of the whole array treated the
  same way; the ten tiles cover every row.
-/
import proofs.«139841_j77008763617440_1_alg».proof.Proof.Gen.KernelIdeal.Frame
import proofs.«139841_j77008763617440_1_alg».proof.Proof.Layers
import Idealize.ShloMosaic.Lib.Pipeline.Value
import Idealize.ShloMosaic.Lib.ValueIdx
import Idealize.ShloMosaic.Lib.ValueLayout

noncomputable section

namespace Cert.KernelIdeal.ActOne

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q): the loaded entry plus the bias row's entry q, rectified (the two
    shape casts are between equal shapes). -/
theorem pay_ix (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) := by
  have h0 : shapeCast S5000x128 x0 shapeCasts_S5000x128_S5000x128 = x0 := shapeCast_self x0 _
  have h1 : shapeCast S1x128 x1 shapeCasts_S1x128_S1x128 = x1 := shapeCast_self x1 _
  have hb : broadcastTo S5000x128 x1 broadcasts_S1x128_S5000x128 (ix2 p q) = x1 (ix2 (0 : Fin 1) q) :=
    broadcastTo_1b_ab_apply x1 broadcasts_S1x128_S5000x128 p q
  show max (shapeCast S5000x128 x0 shapeCasts_S5000x128_S5000x128 (ix2 p q)
      + broadcastTo S5000x128 (shapeCast S1x128 x1 shapeCasts_S1x128_S1x128) broadcasts_S1x128_S5000x128 (ix2 p q))
      (Ideal.ofBits .f32 0x00000000#32) = _
  rw [h0, h1, hb]

/-- The same at any index of the block. -/
theorem pay_apply (x0 : Vec Ideal S5000x128 .f32) (x1 : Vec Ideal S1x128 .f32) (j : S5000x128.Idx) :
    k1_pay1 x0 x1 j = max (x0 j + x1 (ix2 (0 : Fin 1) (j 1))) (Ideal.ofBits .f32 0x00000000#32) := by
  obtain ⟨p, q, rfl⟩ : ∃ (p : Fin 5000) (q : Fin 128), j = ix2 p q := ⟨j 0, j 1, eq_ix2 j⟩
  exact pay_ix x0 x1 p q

/-- The printed index maps over the ten tiles: the row tile of the aggregated array and of the result is the
    tile's number, every other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What tile t writes back is rows 5000 t … 5000 t + 4999 of the whole array plus the bias row, rectified. -/
theorem flushed_eq (c : Dev nD) (t : Fin cfg1.N) :
    (dat1 V c).flushed 2 t = ((cfg1.win 2).blk t).view.read (Elt Ideal)
      (Cert.Layers.rowAct (N := 50000) (C := 128) (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext j
  show k1_pay1 (iblk1 V c 0 t) (iblk1 V c 1 t) j
    = Cert.Layers.rowAct (N := 50000) (C := 128) (V c main_v43) (V c main_v44) (((cfg1.win 2).blk t).view.emb j)
  refine (pay_apply (iblk1 V c 0 t) (iblk1 V c 1 t) j).trans ?_
  unfold Cert.Layers.rowAct
  obtain ⟨e0, e1, e2, e3, e4, e5⟩ := idx_facts t
  have hl : ((cfg1.win 0).blk t).view.emb j = ((cfg1.win 2).blk t).view.emb j := by
    funext a; apply Fin.ext
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * (j 1).val = win1_2.index t (1 : Fin 2) * 128 + 1 * (j 1).val
      omega
  have hr : ((cfg1.win 1).blk t).view.emb (ix2 (n0 := 1) (n1 := 128) (0 : Fin 1) (j 1))
      = ix2 (n0 := 1) (n1 := 128) (0 : Fin 1) ((((cfg1.win 2).blk t).view.emb j) 1) := by
    funext a; apply Fin.ext
    match a with
    | ⟨0, _⟩ => show win1_1.index t (0 : Fin 2) * 1 + 1 * 0 = 0; omega
    | ⟨1, _⟩ =>
      show win1_1.index t (1 : Fin 2) * 128 + 1 * (j 1).val = win1_2.index t (1 : Fin 2) * 128 + 1 * (j 1).val
      omega
  have h1 : iblk1 V c 0 t j = (V c main_v43 : S50000x128.Idx → EReal) (((cfg1.win 2).blk t).view.emb j) :=
    congrArg (V c main_v43 : S50000x128.Idx → EReal) hl
  have h2 : iblk1 V c 1 t (ix2 (n0 := 1) (n1 := 128) (0 : Fin 1) (j 1))
      = (V c main_v44 : S1x128.Idx → EReal) (ix2 (n0 := 1) (n1 := 128) (0 : Fin 1) ((((cfg1.win 2).blk t).view.emb j) 1)) :=
    congrArg (V c main_v44 : S1x128.Idx → EReal) hr
  rw [h1, h2]

/-- An index of the result is in tile t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Row r lies in tile r / 5000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨e0, e1, e2, e3, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e5]; omega

/-- The array the ten write-backs leave: the array the call is entered with plus the bias row on every row,
    rectified. -/
theorem final (c : Dev nD) :
    (dat1 V c).arrAt 2 cfg1.N = Cert.Layers.rowAct (N := 50000) (C := 128) (V c main_v43) (V c main_v44) :=
  (dat1 V c).arrAt_eq_of_cover 2 _ (fun t _ => flushed_eq V c t) cover

end Cert.KernelIdeal.ActOne

end
-- ==== Proof.ProductTwo.lean ====
/-
  The second dense product, h · W2, tile by tile.

  h is the first layer's rectified output (50000 × 128). As for the first product, the node axis is cut into ten
  tiles of 5000 rows; tile t multiplies rows 5000 t … 5000 t + 4999 of h by the whole of W2. Entry (p, q) of tile t
  is Σ_k h(5000 t + p, k) · W2(k, q): entry (5000 t + p, q) of the whole product, and the ten tiles cover every row.
-/
import proofs.«139841_j77008763617440_1_alg».proof.Proof.Gen.KernelIdeal.Frame
import proofs.«139841_j77008763617440_1_alg».proof.Proof.LibMatProd
import Idealize.ShloMosaic.Lib.Pipeline.Value
import Idealize.ShloMosaic.Lib.ValueIdx

noncomputable section

namespace Cert.KernelIdeal.ProductTwo

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the sum over the contracted coordinate of the two loaded blocks (rounding
    the factors to a narrower format is the identity on the extended reals). -/
theorem pay_apply (x0 : Vec Ideal S5000x128 .f32) (x1 : Vec Ideal S128x128 .f32) (j : S5000x128.Idx) :
    k2_pay1 x0 x1 j = ∑ k : Fin 128, x0 (ix2 (j 0) k) * x1 (ix2 k (j 1)) := by
  unfold k2_pay1
  simp only [shapeCast_self]
  exact Cert.LibMatProd.matmul_trunc_apply dot_S5000x128_S128x128_S5000x128_1_0_0_1_n_n rfl rfl rfl rfl rfl rfl
    bitsLt_bf16_f32 x0 x1 j

/-- The printed index maps over the ten tiles: the row tile of the left factor and of the result is the tile's
    number, every other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What tile t writes back is rows 5000 t … 5000 t + 4999 of the whole product of the arrays the call is entered
    with. -/
theorem flushed_eq (c : Dev nD) (t : Fin cfg2.N) :
    (dat2 V c).flushed 2 t = ((cfg2.win 2).blk t).view.read (Elt Ideal)
      (Cert.LibMatProd.matProd (M := 50000) (K := 128) (N := 128) (V c main_v45) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  funext j
  show k2_pay1 (iblk2 V c 0 t) (iblk2 V c 1 t) j
    = Cert.LibMatProd.matProd (M := 50000) (K := 128) (N := 128) (V c main_v45) (V c main_arg4)
        (((cfg2.win 2).blk t).view.emb j)
  refine (pay_apply (iblk2 V c 0 t) (iblk2 V c 1 t) j).trans ?_
  unfold Cert.LibMatProd.matProd
  refine Finset.sum_congr rfl fun k _ => ?_
  obtain ⟨e0, e1, e2, e3, e4, e5⟩ := idx_facts t
  have hl : ((cfg2.win 0).blk t).view.emb (ix2 (n0 := 5000) (n1 := 128) (j 0) k)
      = ix2 (n0 := 50000) (n1 := 128) ((((cfg2.win 2).blk t).view.emb j) 0) k := by
    funext a; apply Fin.ext
    match a with
    | ⟨0, _⟩ =>
      show win2_0.index t (0 : Fin 2) * 5000 + 1 * (j 0).val = win2_2.index t (0 : Fin 2) * 5000 + 1 * (j 0).val
      omega
    | ⟨1, _⟩ => show win2_0.index t (1 : Fin 2) * 128 + 1 * k.val = k.val; omega
  have hr : ((cfg2.win 1).blk t).view.emb (ix2 (n0 := 128) (n1 := 128) k (j 1))
      = ix2 (n0 := 128) (n1 := 128) k ((((cfg2.win 2).blk t).view.emb j) 1) := by
    funext a; apply Fin.ext
    match a with
    | ⟨0, _⟩ => show win2_1.index t (0 : Fin 2) * 128 + 1 * k.val = k.val; omega
    | ⟨1, _⟩ =>
      show win2_1.index t (1 : Fin 2) * 128 + 1 * (j 1).val = win2_2.index t (1 : Fin 2) * 128 + 1 * (j 1).val
      omega
  have h1 : iblk2 V c 0 t (ix2 (n0 := 5000) (n1 := 128) (j 0) k)
      = (V c main_v45 : S50000x128.Idx → EReal) (ix2 (n0 := 50000) (n1 := 128) ((((cfg2.win 2).blk t).view.emb j) 0) k) :=
    congrArg (V c main_v45 : S50000x128.Idx → EReal) hl
  have h2 : iblk2 V c 1 t (ix2 (n0 := 128) (n1 := 128) k (j 1))
      = (V c main_arg4 : S128x128.Idx → EReal) (ix2 (n0 := 128) (n1 := 128) k ((((cfg2.win 2).blk t).view.emb j) 1)) :=
    congrArg (V c main_arg4 : S128x128.Idx → EReal) hr
  rw [h1, h2]

/-- An index of the result is in tile t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v46).slice (win2_2.rect t)).set ↔ _
  rw [View.set_slice_whole, Rect.mem_set_unit]
  exact Iff.rfl

/-- Row r lies in tile r / 5000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨e0, e1, e2, e3, e4, e5⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    rw [e5]; omega

/-- The array the ten write-backs leave is the whole product of the two arrays the call is entered with. -/
theorem final (c : Dev nD) :
    (dat2 V c).arrAt 2 cfg2.N
      = Cert.LibMatProd.matProd (M := 50000) (K := 128) (N := 128) (V c main_v45) (V c main_arg4) :=
  (dat2 V c).arrAt_eq_of_cover 2 _ (fun t _ => flushed_eq V c t) cover

end Cert.KernelIdeal.ProductTwo

end
-- ==== Proof.ThroughCalls.lean ====
/-
  The idealized kernel's buffers through its first three tiled calls.

  Each tiled call leaves its result array at one whole-array function of the arrays it is entered with (the dense
  product; the bias and the rectifier), and leaves every other buffer as it was; the host stretch between the first two
  calls is the aggregation over the edges and the bias laid out as one row. Boundary by boundary: the first product,
  the first hidden layer, the second product — with the edge tables and the arguments still to be read carried along.
-/
import proofs.«139841_j77008763617440_1_alg».proof.Proof.BeforeCalls
import proofs.«139841_j77008763617440_1_alg».proof.Proof.ProductOne
import proofs.«139841_j77008763617440_1_alg».proof.Proof.ActOne
import proofs.«139841_j77008763617440_1_alg».proof.Proof.ProductTwo

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Cert.Gcn Cert.LibConcat Cert.LibMatProd Cert.Layers

variable (m : (ℓ : Loc nD τ sig) → Buf (Elt Ideal) ℓ) (ρ : Dev nD → PrngReg) (c : Dev nD)

/-! ## After the first product -/

theorem D_v30 : W4 m ρ c (Proc.devRef .tc main_v30) = matProd (M := 50000) (K := 256) (N := 128) (m ((c : Thread nD τ).loc main_arg0)) (m ((c : Thread nD τ).loc main_arg2)) :=
  (W4_arr m ρ c 2).trans ((ProductOne.final (V3 m ρ) c).trans
    (congrArg₂ (matProd (M := 50000) (K := 256) (N := 128)) (C_arg0 m ρ c) (C_arg2 m ρ c)))

theorem D_tables : W4 m ρ c (Proc.devRef .tc main_v3) = src (m ((c : Thread nD τ).loc main_arg1)) ∧ W4 m ρ c (Proc.devRef .tc main_v6) = dst (m ((c : Thread nD τ).loc main_arg1)) ∧ W4 m ρ c (Proc.devRef .tc main_v29) = nrm (m ((c : Thread nD τ).loc main_arg1)) :=
  ⟨(W4_of_ne m ρ c main_v3 (by decide)).trans (C_tables m ρ c).1,
   (W4_of_ne m ρ c main_v6 (by decide)).trans (C_tables m ρ c).2.1,
   (W4_of_ne m ρ c main_v29 (by decide)).trans (C_tables m ρ c).2.2⟩

theorem D_arg3 : W4 m ρ c (Proc.devRef .tc main_arg3) = (m ((c : Thread nD τ).loc main_arg3)) :=
  (W4_of_ne m ρ c main_arg3 (by decide)).trans (C_arg3 m ρ c)

theorem D_arg4 : W4 m ρ c (Proc.devRef .tc main_arg4) = (m ((c : Thread nD τ).loc main_arg4)) :=
  (W4_of_ne m ρ c main_arg4 (by decide)).trans (C_arg4 m ρ c)

/-! ## After the first aggregation -/

theorem E_v43 : W5 m ρ c (Proc.devRef .tc main_v43)
    = aggr (matProd (M := 50000) (K := 256) (N := 128) (m ((c : Thread nD τ).loc main_arg0)) (m ((c : Thread nD τ).loc main_arg2))) (src (m ((c : Thread nD τ).loc main_arg1))) (dst (m ((c : Thread nD τ).loc main_arg1))) (nrm (m ((c : Thread nD τ).loc main_arg1))) := by
  have hh := D_v30 m ρ c
  obtain ⟨h3, h6, h29⟩ := D_tables m ρ c
  show StableHlo.after hostOps1 (W4 m ρ c) (Proc.devRef .tc main_v43) = _
  generalize W4 m ρ c = X at hh h3 h6 h29 ⊢
  dsimp only [hostOps1]
  after_results_simp
  rw [hh, h3, h6, h29]
  rfl

theorem E_v44 : W5 m ρ c (Proc.devRef .tc main_v44) = shapeCast S1x128 (m ((c : Thread nD τ).loc main_arg3)) shapeCasts_S128_S1x128 := by
  have ha := D_arg3 m ρ c
  show StableHlo.after hostOps1 (W4 m ρ c) (Proc.devRef .tc main_v44) = _
  generalize W4 m ρ c = X at ha ⊢
  dsimp only [hostOps1]
  after_results_simp
  rw [ha]
  rfl

theorem E_tables : W5 m ρ c (Proc.devRef .tc main_v3) = src (m ((c : Thread nD τ).loc main_arg1)) ∧ W5 m ρ c (Proc.devRef .tc main_v6) = dst (m ((c : Thread nD τ).loc main_arg1)) ∧ W5 m ρ c (Proc.devRef .tc main_v29) = nrm (m ((c : Thread nD τ).loc main_arg1)) := by
  obtain ⟨h3, h6, h29⟩ := D_tables m ρ c
  show StableHlo.after hostOps1 (W4 m ρ c) (Proc.devRef .tc main_v3) = _ ∧ StableHlo.after hostOps1 (W4 m ρ c) (Proc.devRef .tc main_v6) = _
    ∧ StableHlo.after hostOps1 (W4 m ρ c) (Proc.devRef .tc main_v29) = _
  generalize W4 m ρ c = X at h3 h6 h29 ⊢
  dsimp only [hostOps1]
  refine ⟨?_, ?_, ?_⟩
  · after_results_simp
    exact h3
  · after_results_simp
    exact h6
  · after_results_simp
    exact h29

theorem E_arg4 : W5 m ρ c (Proc.devRef .tc main_arg4) = (m ((c : Thread nD τ).loc main_arg4)) := by
  have h := D_arg4 m ρ c
  show StableHlo.after hostOps1 (W4 m ρ c) (Proc.devRef .tc main_arg4) = _
  generalize W4 m ρ c = X at h ⊢
  dsimp only [hostOps1]
  after_results_simp
  exact h

/-! ## After the first bias and rectifier: the first hidden layer -/

theorem F_v45 : W6 m ρ c (Proc.devRef .tc main_v45) = hidden1 (m ((c : Thread nD τ).loc main_arg0)) (m ((c : Thread nD τ).loc main_arg1)) (m ((c : Thread nD τ).loc main_arg2)) (m ((c : Thread nD τ).loc main_arg3)) :=
  (W6_arr m ρ c 2).trans ((ActOne.final (V5 m ρ) c).trans
    (congrArg₂ (rowAct (N := 50000) (C := 128)) (E_v43 m ρ c) (E_v44 m ρ c)))

theorem F_tables : W6 m ρ c (Proc.devRef .tc main_v3) = src (m ((c : Thread nD τ).loc main_arg1)) ∧ W6 m ρ c (Proc.devRef .tc main_v6) = dst (m ((c : Thread nD τ).loc main_arg1)) ∧ W6 m ρ c (Proc.devRef .tc main_v29) = nrm (m ((c : Thread nD τ).loc main_arg1)) :=
  ⟨(W6_of_ne m ρ c main_v3 (by decide)).trans (E_tables m ρ c).1,
   (W6_of_ne m ρ c main_v6 (by decide)).trans (E_tables m ρ c).2.1,
   (W6_of_ne m ρ c main_v29 (by decide)).trans (E_tables m ρ c).2.2⟩

theorem F_arg4 : W6 m ρ c (Proc.devRef .tc main_arg4) = (m ((c : Thread nD τ).loc main_arg4)) :=
  (W6_of_ne m ρ c main_arg4 (by decide)).trans (E_arg4 m ρ c)

/-! ## After the second product -/

theorem G_v46 : W7 m ρ c (Proc.devRef .tc main_v46) = matProd (M := 50000) (K := 128) (N := 128) (hidden1 (m ((c : Thread nD τ).loc main_arg0)) (m ((c : Thread nD τ).loc main_arg1)) (m ((c : Thread nD τ).loc main_arg2)) (m ((c : Thread nD τ).loc main_arg3))) (m ((c : Thread nD τ).loc main_arg4)) :=
  (W7_arr m ρ c 2).trans ((ProductTwo.final (V6 m ρ) c).trans
    (congrArg₂ (matProd (M := 50000) (K := 128) (N := 128)) (F_v45 m ρ c) (F_arg4 m ρ c)))

theorem G_tables : W7 m ρ c (Proc.devRef .tc main_v3) = src (m ((c : Thread nD τ).loc main_arg1)) ∧ W7 m ρ c (Proc.devRef .tc main_v6) = dst (m ((c : Thread nD τ).loc main_arg1)) ∧ W7 m ρ c (Proc.devRef .tc main_v29) = nrm (m ((c : Thread nD τ).loc main_arg1)) :=
  ⟨(W7_of_ne m ρ c main_v3 (by decide)).trans (F_tables m ρ c).1,
   (W7_of_ne m ρ c main_v6 (by decide)).trans (F_tables m ρ c).2.1,
   (W7_of_ne m ρ c main_v29 (by decide)).trans (F_tables m ρ c).2.2⟩

end Cert.KernelIdeal.Chain

end
-- ==== Proof.ActTwo.lean ====
/-
  The second layer's bias and rectifier, tile by tile.

  As in the first layer: the second aggregated array (50000 × 128) is cut into ten tiles of 5000 rows, the bias is
  one row read whole at every tile, and tile t adds it to each of its rows and takes the maximum with zero. Entry
  (p, q) of tile t is max (a(5000 t + p, q) + bias(0, q)) 0: entry (5000 t + p, q) of the whole array treated the same
  way, and the ten tiles cover every row.
-/
import proofs.«139841_j77008763617440_1_alg».proof.Proof.Gen.KernelIdeal.Frame
import proofs.«139841_j77008763617440_1_alg».proof.Proof.Layers
import Idealize.ShloMosaic.Lib.Pipeline.Value
import Idealize.ShloMosaic.Lib.ValueIdx
import Idealize.ShloMosaic.Lib.ValueLayout

noncomputable section

namespace Cert.KernelIdeal.ActTwo

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q): the loaded entry plus the bias row's entry q, rectified (the two
    shape casts are between equal shapes). -/
theorem pay_ix (x0 : Vec Ideal S5000x128 .f32) (x1 : Vec Ideal S1x128 .f32) (p : Fin 5000) (q : Fin 128) :
    k3_pay1 x0 x1 (ix2 p q) = max (x0 (ix2 p q) + x1 (ix2 (0 : Fin 1) q)) (Ideal.ofBits .f32 0x00000000#32) := by
  have h0 : shapeCast S5000x128 x0 shapeCasts_S5000x128_S5000x128 = x0 := shapeCast_self x0 _
  have h1 : shapeCast S1x128 x1 shapeCasts_S1x128_S1x128 = x1 := shapeCast_self x1 _
  have hb : broadcastTo S5000x128 x1 broadcasts_S1x128_S5000x128 (ix2 p q) = x1 (ix2 (0 : Fin 1) q) :=
    broadcastTo_1b_ab_apply x1 broadcasts_S1x128_S5000x128 p q
  show max (shapeCast S5000x128 x0 shapeCasts_S5000x128_S5000x128 (ix2 p q)
      + broadcastTo S5000x128 (shapeCast S1x128 x1 shapeCasts_S1x128_S1x128) broadcasts_S1x128_S5000x128 (ix2 p q))
      (Ideal.ofBits .f32 0x00000000#32) = _
  rw [h0, h1, hb]

/-- The same at any index of the block. -/
theorem pay_apply (x0 : Vec Ideal S5000x128 .f32) (x1 : Vec Ideal S1x128 .f32) (j : S5000x128.Idx) :
    k3_pay1 x0 x1 j = max (x0 j + x1 (ix2 (0 : Fin 1) (j 1))) (Ideal.ofBits .f32 0x00000000#32) := by
  obtain ⟨p, q, rfl⟩ : ∃ (p : Fin 5000) (q : Fin 128), j = ix2 p q := ⟨j 0, j 1, eq_ix2 j⟩
  exact pay_ix x0 x1 p q

/-- The printed index maps over the ten tiles: the row tile of the aggregated array and of the result is the
    tile's number, every other block index is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What tile t writes back is rows 5000 t … 5000 t + 4999 of the whole array plus the bias row, rectified. -/
theorem flushed_eq (c : Dev nD) (t : Fin cfg3.N) :
    (dat3 V c).flushed 2 t = ((cfg3.win 2).blk t).view.read (Elt Ideal)
      (Cert.Layers.rowAct (N := 50000) (C := 128) (V c main_v59) (V c main_v60)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  funext j
  show k3_pay1 (iblk3 V c 0 t) (iblk3 V c 1 t) j
    = Cert.Layers.rowAct (N := 50000) (C := 128) (V c main_v59) (V c main_v60) (((cfg3.win 2).blk t).view.emb j)
  refine (pay_apply (iblk3 V c 0 t) (iblk3 V c 1 t) j).trans ?_
  unfold Cert.Layers.rowAct
  obtain ⟨e0, e1, e2, e3, e4, e5⟩ := idx_facts t
  have hl : ((cfg3.win 0).blk t).view.emb j = ((cfg3.win 2).blk t).view.emb j := by
    funext a; apply Fin.ext
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 128 + 1 * (j 1).val = win3_2.index t (1 : Fin 2) * 128 + 1 * (j 1).val
      omega
  have hr : ((cfg3.win 1).blk t).view.emb (ix2 (n0 := 1) (n1 := 128) (0 : Fin 1) (j 1))
      = ix2 (n0 := 1) (n1 := 128) (0 : Fin 1) ((((cfg3.win 2).blk t).view.emb j) 1) := by
    funext a; apply Fin.ext
    match a with
    | ⟨0, _⟩ => show win3_1.index t (0 : Fin 2) * 1 + 1 * 0 = 0; omega
    | ⟨1, _⟩ =>
      show win3_1.index t (1 : Fin 2) * 128 + 1 * (j 1).val = win3_2.index t (1 : Fin 2) * 128 + 1 * (j 1).val
      omega
  have h1 : iblk3 V c 0 t j = (V c main_v59 : S50000x128.Idx → EReal) (((cfg3.win 2).blk t).view.emb j) :=
    congrArg (V c main_v59 : S50000x128.Idx → EReal) hl
  have h2 : iblk3 V c 1 t (ix2 (n0 := 1) (n1 := 128) (0 : Fin 1) (j 1))
      = (V c main_v60 : S1x128.Idx → EReal) (ix2 (n0 := 1) (n1 := 128) (0 : Fin 1) ((((cfg3.win 2).blk t).view.emb j) 1)) :=
    congrArg (V c main_v60 : S1x128.Idx → EReal) hr
  rw [h1, h2]

/-- An index of the result is in tile t's block iff each coordinate is in the block's range on its axis. -/
theorem mem_blk (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v61).slice (win3_2.rect t)).set ↔ _
  rw [View.set_slice_whole, Rect.mem_set_unit]
  exact Iff.rfl

/-- Row r lies in tile r / 5000. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨e0, e1, e2, e3, e4, e5⟩ := idx_facts ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    rw [e5]; omega

/-- The array the ten write-backs leave: the array the call is entered with plus the bias row on every row,
    rectified. -/
theorem final (c : Dev nD) :
    (dat3 V c).arrAt 2 cfg3.N = Cert.Layers.rowAct (N := 50000) (C := 128) (V c main_v59) (V c main_v60) :=
  (dat3 V c).arrAt_eq_of_cover 2 _ (fun t _ => flushed_eq V c t) cover

end Cert.KernelIdeal.ActTwo

end
-- ==== Proof.Decode.lean ====
/-
  The decoder, h · Wd + bias, tile by tile.

  h is the second layer's rectified output (50000 × 128), cut into ten tiles of 5000 rows; Wd (128 × 64) and the one
  row of 64 biases are read whole at every tile. Tile t multiplies its rows of h by Wd — the matrix unit's product
  into a zero accumulator, the plain sum over the contracted coordinate on the extended reals — and adds the bias row
  to every row. Entry (p, q) of tile t is Σ_k h(5000 t + p, k) · Wd(k, q) + bias(0, q): entry (5000 t + p, q) of the
  whole product with the bias row added, and the ten tiles cover every row.
-/
import proofs.«139841_j77008763617440_1_alg».proof.Proof.Gen.KernelIdeal.Frame
import proofs.«139841_j77008763617440_1_alg».proof.Proof.Layers
import proofs.«139841_j77008763617440_1_alg».proof.Proof.LibMatProd
import Idealize.ShloMosaic.Lib.Pipeline.Value
import Idealize.ShloMosaic.Lib.ValueIdx
import Idealize.ShloMosaic.Lib.ValueLayout

noncomputable section

namespace Cert.KernelIdeal.Decode

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: the sum over the contracted coordinate of the two loaded blocks, plus the
    bias row's entry in that column (the shape casts are between equal shapes; rounding the factors to a narrower
    format is the identity on the extended reals). -/
theorem pay_apply (x0 : Vec Ideal S5000x128 .f32) (x1 : Vec Ideal S128x64 .f32) (x2 : Vec Ideal S1x64 .f32)
    (j : S5000x64.Idx) :
    k4_pay1 x0 x1 x2 j = (∑ k : Fin 128, x0 (ix2 (j 0) k) * x1 (ix2 k (j 1))) + x2 (ix2 (0 : Fin 1) (j 1)) := by
  have hb : broadcastTo S5000x64 x2 broadcasts_S1x64_S5000x64 j = x2 (ix2 (0 : Fin 1) (j 1)) := by
    obtain ⟨p, q, rfl⟩ : ∃ (p : Fin 5000) (q : Fin 64), j = ix2 p q := ⟨j 0, j 1, eq_ix2 j⟩
    exact broadcastTo_1b_ab_apply x2 broadcasts_S1x64_S5000x64 p q
  have hm := Cert.LibMatProd.matmul_trunc_apply dot_S5000x128_S128x64_S5000x64_1_0_0_1_n_n rfl rfl rfl rfl rfl rfl
    bitsLt_bf16_f32 x0 x1 j
  unfold k4_pay1
  simp only [shapeCast_self]
  exact congrArg₂ (fun (a b : EReal) => a + b) hm hb

/-- The printed index maps over the ten tiles: the row tile of h and of the result is the tile's number, every
    other block index is zero. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What tile t writes back is rows 5000 t … 5000 t + 4999 of the whole product plus the bias row. -/
theorem flushed_eq (c : Dev nD) (t : Fin cfg4.N) :
    (dat4 V c).flushed 3 t = ((cfg4.win 3).blk t).view.read (Elt Ideal)
      (Cert.Layers.rowAffine (N := 50000) (K := 128) (C := 64) (V c main_v61) (V c main_arg6) (V c main_v62)) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x64) hz, View.ld_unit_zero (S := S1x64) hz]
  funext j
  show k4_pay1 (iblk4 V c 0 t) (iblk4 V c 1 t) (iblk4 V c 2 t) j
    = Cert.Layers.rowAffine (N := 50000) (K := 128) (C := 64) (V c main_v61) (V c main_arg6) (V c main_v62)
        (((cfg4.win 3).blk t).view.emb j)
  refine (pay_apply (iblk4 V c 0 t) (iblk4 V c 1 t) (iblk4 V c 2 t) j).trans ?_
  unfold Cert.Layers.rowAffine Cert.LibMatProd.matProd
  obtain ⟨e0, e1, e2, e3, e4, e5, e6, e7⟩ := idx_facts t
  have hb : ((cfg4.win 2).blk t).view.emb (ix2 (n0 := 1) (n1 := 64) (0 : Fin 1) (j 1))
      = ix2 (n0 := 1) (n1 := 64) (0 : Fin 1) ((((cfg4.win 3).blk t).view.emb j) 1) := by
    funext a; apply Fin.ext
    match a with
    | ⟨0, _⟩ => show win4_2.index t (0 : Fin 2) * 1 + 1 * 0 = 0; omega
    | ⟨1, _⟩ =>
      show win4_2.index t (1 : Fin 2) * 64 + 1 * (j 1).val = win4_3.index t (1 : Fin 2) * 64 + 1 * (j 1).val
      omega
  have h3 : iblk4 V c 2 t (ix2 (n0 := 1) (n1 := 64) (0 : Fin 1) (j 1))
      = (V c main_v62 : S1x64.Idx → EReal) (ix2 (n0 := 1) (n1 := 64) (0 : Fin 1) ((((cfg4.win 3).blk t).view.emb j) 1)) :=
    congrArg (V c main_v62 : S1x64.Idx → EReal) hb
  refine congrArg₂ (fun (a b : EReal) => a + b) (Finset.sum_congr rfl fun k _ => ?_) h3
  have hl : ((cfg4.win 0).blk t).view.emb (ix2 (n0 := 5000) (n1 := 128) (j 0) k)
      = ix2 (n0 := 50000) (n1 := 128) ((((cfg4.win 3).blk t).view.emb j) 0) k := by
    funext a; apply Fin.ext
    match a with
    | ⟨0, _⟩ =>
      show win4_0.index t (0 : Fin 2) * 5000 + 1 * (j 0).val = win4_3.index t (0 : Fin 2) * 5000 + 1 * (j 0).val
      omega
    | ⟨1, _⟩ => show win4_0.index t (1 : Fin 2) * 128 + 1 * k.val = k.val; omega
  have hr : ((cfg4.win 1).blk t).view.emb (ix2 (n0 := 128) (n1 := 64) k (j 1))
      = ix2 (n0 := 128) (n1 := 64) k ((((cfg4.win 3).blk t).view.emb j) 1) := by
    funext a; apply Fin.ext
    match a with
    | ⟨0, _⟩ => show win4_1.index t (0 : Fin 2) * 128 + 1 * k.val = k.val; omega
    | ⟨1, _⟩ =>
      show win4_1.index t (1 : Fin 2) * 64 + 1 * (j 1).val = win4_3.index t (1 : Fin 2) * 64 + 1 * (j 1).val
      omega
  have h1 : iblk4 V c 0 t (ix2 (n0 := 5000) (n1 := 128) (j 0) k)
      = (V c main_v61 : S50000x128.Idx → EReal) (ix2 (n0 := 50000) (n1 := 128) ((((cfg4.win 3).blk t).view.emb j) 0) k) :=
    congrArg (V c main_v61 : S50000x128.Idx → EReal) hl
  have h2 : iblk4 V c 1 t (ix2 (n0 := 128) (n1 := 64) k (j 1))
      = (V c main_arg6 : S128x64.Idx → EReal) (ix2 (n0 := 128) (n1 := 64) k ((((cfg4.win 3).blk t).view.emb j) 1)) :=
    congrArg (V c main_arg6 : S128x64.Idx → EReal) hr
  rw [h1, h2]

/-- An index of the result is in tile t's block iff each coordinate is in the block's range on its axis. -/
theorem mem_blk (t : Fin cfg4.N) (i : S50000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v63).slice (win4_3.rect t)).set ↔ _
  rw [View.set_slice_whole, Rect.mem_set_unit]
  exact Iff.rfl

/-- Row r lies in tile r / 5000. -/
theorem cover (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 10 := N_4
  have ht : (i 0).val / 5000 < cfg4.N := by rw [hN]; omega
  obtain ⟨e0, e1, e2, e3, e4, e5, e6, e7⟩ := idx_facts ⟨(i 0).val / 5000, ht⟩
  refine ⟨⟨(i 0).val / 5000, ht⟩, flush4_3 _, ?_⟩
  rw [mem_blk]
  intro a
  match a with
  | ⟨0, _⟩ =>
    show win4_3.index ⟨(i 0).val / 5000, ht⟩ (0 : Fin 2) * 5000 ≤ (i 0).val
      ∧ (i 0).val < win4_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win4_3.index ⟨(i 0).val / 5000, ht⟩ (1 : Fin 2) * 64 ≤ (i 1).val
      ∧ (i 1).val < win4_3.index ⟨(i 0).val / 5000, ht⟩ (1 : Fin 2) * 64 + 64
    rw [e7]; omega

/-- The array the ten write-backs leave: the product of the two arrays the call is entered with, plus the bias
    row on every row. -/
theorem final (c : Dev nD) :
    (dat4 V c).arrAt 3 cfg4.N
      = Cert.Layers.rowAffine (N := 50000) (K := 128) (C := 64) (V c main_v61) (V c main_arg6) (V c main_v62) :=
  (dat4 V c).arrAt_eq_of_cover 3 _ (fun t _ => flushed_eq V c t) cover

end Cert.KernelIdeal.Decode

end
-- ==== Proof.AtReturn.lean ====
/-
  The idealized kernel's buffers at its return: the two results as functions of the eight arguments.

  The second aggregation and bias row, the second bias-and-rectifier call (the second hidden layer, one of the two
  results), the decoder's bias row, the decoder call (the other result). The three arguments read only here are traced
  forward from the return, where every argument holds its launch contents: no call and no host stretch in between
  writes them.
-/
import proofs.«139841_j77008763617440_1_alg».proof.Proof.ThroughCalls
import proofs.«139841_j77008763617440_1_alg».proof.Proof.ActTwo
import proofs.«139841_j77008763617440_1_alg».proof.Proof.Decode

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Cert.Gcn Cert.LibConcat Cert.LibMatProd Cert.Layers

variable (m : (ℓ : Loc nD τ sig) → Buf (Elt Ideal) ℓ) (ρ : Dev nD → PrngReg) (c : Dev nD)

/-! ## The arguments read late, traced from the return -/

theorem J_arg6 : W10 m ρ c (Proc.devRef .tc main_arg6) = (m ((c : Thread nD τ).loc main_arg6)) :=
  ((W11_arr m ρ c 1).trans (((dat4 (V10 m ρ) c).arrAt_in 1 rfl _).trans (A_eq4 (V10 m ρ) c 1))).symm.trans
    (W11_main_arg6 m ρ c)

theorem J_arg7 : W10 m ρ c (Proc.devRef .tc main_arg7) = (m ((c : Thread nD τ).loc main_arg7)) :=
  (W11_of_ne m ρ c main_arg7 (by decide)).symm.trans (W11_main_arg7 m ρ c)

theorem I_arg7 : W9 m ρ c (Proc.devRef .tc main_arg7) = (m ((c : Thread nD τ).loc main_arg7)) := by
  have h : W10 m ρ c (Proc.devRef .tc main_arg7) = W9 m ρ c (Proc.devRef .tc main_arg7) := by
    show StableHlo.after hostOps4 (W9 m ρ c) (Proc.devRef .tc main_arg7) = _
    generalize W9 m ρ c = X
    dsimp only [hostOps4]
    after_results_simp
  exact h.symm.trans (J_arg7 m ρ c)

theorem J_arg5 : W10 m ρ c (Proc.devRef .tc main_arg5) = (m ((c : Thread nD τ).loc main_arg5)) :=
  (W11_of_ne m ρ c main_arg5 (by decide)).symm.trans (W11_main_arg5 m ρ c)

theorem I_arg5 : W9 m ρ c (Proc.devRef .tc main_arg5) = (m ((c : Thread nD τ).loc main_arg5)) := by
  have h : W10 m ρ c (Proc.devRef .tc main_arg5) = W9 m ρ c (Proc.devRef .tc main_arg5) := by
    show StableHlo.after hostOps4 (W9 m ρ c) (Proc.devRef .tc main_arg5) = _
    generalize W9 m ρ c = X
    dsimp only [hostOps4]
    after_results_simp
  exact h.symm.trans (J_arg5 m ρ c)

theorem H_arg5 : W8 m ρ c (Proc.devRef .tc main_arg5) = (m ((c : Thread nD τ).loc main_arg5)) :=
  (W9_of_ne m ρ c main_arg5 (by decide)).symm.trans (I_arg5 m ρ c)

theorem G_arg5 : W7 m ρ c (Proc.devRef .tc main_arg5) = (m ((c : Thread nD τ).loc main_arg5)) := by
  have h : W8 m ρ c (Proc.devRef .tc main_arg5) = W7 m ρ c (Proc.devRef .tc main_arg5) := by
    show StableHlo.after hostOps3 (W7 m ρ c) (Proc.devRef .tc main_arg5) = _
    generalize W7 m ρ c = X
    dsimp only [hostOps3]
    after_results_simp
  exact h.symm.trans (H_arg5 m ρ c)

/-! ## After the second aggregation -/

theorem H_v59 : W8 m ρ c (Proc.devRef .tc main_v59)
    = aggr (matProd (M := 50000) (K := 128) (N := 128) (hidden1 (m ((c : Thread nD τ).loc main_arg0)) (m ((c : Thread nD τ).loc main_arg1)) (m ((c : Thread nD τ).loc main_arg2)) (m ((c : Thread nD τ).loc main_arg3))) (m ((c : Thread nD τ).loc main_arg4))) (src (m ((c : Thread nD τ).loc main_arg1))) (dst (m ((c : Thread nD τ).loc main_arg1))) (nrm (m ((c : Thread nD τ).loc main_arg1))) := by
  have hh := G_v46 m ρ c
  obtain ⟨h3, h6, h29⟩ := G_tables m ρ c
  show StableHlo.after hostOps3 (W7 m ρ c) (Proc.devRef .tc main_v59) = _
  generalize W7 m ρ c = X at hh h3 h6 h29 ⊢
  dsimp only [hostOps3]
  after_results_simp
  rw [hh, h3, h6, h29]
  rfl

theorem H_v60 : W8 m ρ c (Proc.devRef .tc main_v60) = shapeCast S1x128 (m ((c : Thread nD τ).loc main_arg5)) shapeCasts_S128_S1x128 := by
  have ha := G_arg5 m ρ c
  show StableHlo.after hostOps3 (W7 m ρ c) (Proc.devRef .tc main_v60) = _
  generalize W7 m ρ c = X at ha ⊢
  dsimp only [hostOps3]
  after_results_simp
  rw [ha]
  rfl

/-! ## After the second bias and rectifier: the second hidden layer -/

theorem I_v61 : W9 m ρ c (Proc.devRef .tc main_v61) = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((ActTwo.final (V8 m ρ) c).trans
    (congrArg₂ (rowAct (N := 50000) (C := 128)) (H_v59 m ρ c) (H_v60 m ρ c)))

/-! ## Before the decoder -/

theorem J_v61 : W10 m ρ c (Proc.devRef .tc main_v61) = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h := I_v61 m ρ c
  show StableHlo.after hostOps4 (W9 m ρ c) (Proc.devRef .tc main_v61) = _
  generalize W9 m ρ c = X at h ⊢
  dsimp only [hostOps4]
  after_results_simp
  exact h

theorem J_v62 : W10 m ρ c (Proc.devRef .tc main_v62) = shapeCast S1x64 (m ((c : Thread nD τ).loc main_arg7)) shapeCasts_S64_S1x64 := by
  have ha := I_arg7 m ρ c
  show StableHlo.after hostOps4 (W9 m ρ c) (Proc.devRef .tc main_v62) = _
  generalize W9 m ρ c = X at ha ⊢
  dsimp only [hostOps4]
  after_results_simp
  rw [ha]
  rfl

/-! ## At the return -/

/-- The decoder's result. -/
theorem K_v63 : W11 m ρ c (Proc.devRef .tc main_v63) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h := (W11_arr m ρ c 3).trans (Decode.final (V10 m ρ) c)
  have h61 : V10 m ρ c main_v61 = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := J_v61 m ρ c
  have h6 : V10 m ρ c main_arg6 = (m ((c : Thread nD τ).loc main_arg6)) := J_arg6 m ρ c
  have h62 : V10 m ρ c main_v62 = shapeCast S1x64 (m ((c : Thread nD τ).loc main_arg7)) shapeCasts_S64_S1x64 := J_v62 m ρ c
  rw [h61, h6, h62] at h
  exact h

/-- The second hidden layer, which the decoder call reads and leaves as it was. -/
theorem K_v61 : W11 m ρ c (Proc.devRef .tc main_v61) = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W11_arr m ρ c 0).trans (((dat4 (V10 m ρ) c).arrAt_in 0 rfl _).trans ((A_eq4 (V10 m ρ) c 0).trans (J_v61 m ρ c)))

end Cert.KernelIdeal.Chain

end
-- ==== Proof.LibRowReshape.lean ====
/-
  A length-n vector laid out as a 1 × n row, for any n and any element type: reshaping it ([n] → [1, n]) and
  broadcasting it along a new leading unit axis (broadcast_in_dim, dims = [1]) are the same array — entry (0, q) is
  v q either way.  (A kernel wrapper's `b.reshape(1, n)` against a reference's broadcast of the same bias.)
-/
import Idealize.ShloMosaic.Lib.Pipeline.Value
import Idealize.ShloMosaic.Lib.ValueIdx

noncomputable section

namespace Cert.LibRowReshape

open Idealize.ShloMosaic

/-- The reshape [n] → [1, n] is the broadcast [n] → [1, n] along the new axis. -/
theorem reshape_row_eq_broadcast {α : Type} {n : Nat} (v : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ v h = broadcastInDim ⟨2, ![1, n]⟩ (![1] : Fin 1 → Fin 2) h' v := by
  funext j
  have hj0 : (j 0).val = 0 := by have := (j 0).isLt; simp at this; omega
  have hj1 : (j 1).val < n := (j 1).isLt
  let k : (⟨1, ![n]⟩ : Shape).Idx := fun a => ⟨(j 1).val, by match a with | ⟨0, _⟩ => exact hj1⟩
  rw [shapeCast_apply v h j k (by
        rw [Shape.rowMajor_val_one, Shape.rowMajor_val_two]
        show (j 1).val = (j 0).val * n + (j 1).val
        rw [hj0]; omega),
      broadcastInDim_apply (![1] : Fin 1 → Fin 2) h' v j k (fun a => by
        match a with
        | ⟨0, _⟩ =>
          show (j 1).val = if n = 1 then 0 else (j 1).val
          by_cases hn : n = 1
          · rw [if_pos hn]; omega
          · rw [if_neg hn])]

end Cert.LibRowReshape

end
-- ==== Proof.RefValue.lean ====
/-
  The value of the reference program: what its two result buffers hold after it has run, as the graph-convolution
  network of its eight argument arrays.

  The reference is ninety host operations in a line, and the run leaves every buffer at the fold of their results over
  the launch contents. Reading that fold back is done stretch by stretch: the line is cut into eight consecutive
  stretches (the edge tables in three, each of the two layers in two, the decoder), the contents before a stretch are
  any contents `X`, and what the stretch leaves in the one or two buffers later stretches read is stated from what `X`
  holds in the few buffers the stretch reads. A gather, a scatter or a concatenation is never looked into: both sides of
  every equation name it with the same operands. Three facts are not by unfolding: a `dot_general` contracting the
  second axis with the first is the matrix product entry by entry; a bias laid out as a row and repeated down the rows,
  added and rectified against the zero splat, is `rowAct`; added to a product it is `rowAffine`. Chaining the stretches
  gives the two results; no stretch writes an argument buffer.
-/
import proofs.«139841_j77008763617440_1_alg».proof.Proof.RefOps
import proofs.«139841_j77008763617440_1_alg».proof.Proof.Vocab
import proofs.«139841_j77008763617440_1_alg».proof.Proof.Layers
import proofs.«139841_j77008763617440_1_alg».proof.Proof.LibMatProd
import proofs.«139841_j77008763617440_1_alg».proof.Proof.LibConcat
import proofs.«139841_j77008763617440_1_alg».proof.Proof.LibTRef
import proofs.«139841_j77008763617440_1_alg».proof.Proof.LibRowReshape
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.ValueP Idealize.ShloMosaic Idealize.ShloMosaic.TcCoe
  Idealize.SL.Sem Idealize.ShloMosaic.StableHlo Idealize.ShloMosaic.ValueIdx

section Bias
variable {N K C : Nat}

/-- A bias vector laid out as a row and repeated down the rows reads, at (p, q), the row at (0, q). -/
theorem bias_rows_apply (b : FVec Ideal ⟨1, ![C]⟩ .f32)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (hc : (⟨1, ![C]⟩ : Shape).ShapeCasts ⟨2, ![1, C]⟩) (i : (⟨2, ![N, C]⟩ : Shape).Idx) :
    broadcastInDim ⟨2, ![N, C]⟩ (![0, 1] : Fin 2 → Fin 2) h2 (broadcastInDim ⟨2, ![1, C]⟩ (![1] : Fin 1 → Fin 2) h1 b) i
      = shapeCast ⟨2, ![1, C]⟩ b hc (ix2 (0 : Fin 1) (i 1)) := by
  rw [← Cert.LibRowReshape.reshape_row_eq_broadcast b hc h1]
  refine broadcastInDim_apply _ h2 _ i (ix2 (0 : Fin 1) (i 1)) (fun a => ?_)
  match a with
  | ⟨0, _⟩ => rfl
  | ⟨1, _⟩ =>
    show (i 1).val = if C = 1 then 0 else (i 1).val
    by_cases hC : C = 1
    · rw [if_pos hC]; have := (i 1).isLt; simp at this; omega
    · rw [if_neg hC]

/-- The zero splat reads the zero word's value everywhere. -/
theorem zero_splat_apply (h0 : (⟨0, ![]⟩ : Shape).BroadcastsInDim ⟨2, ![N, C]⟩ (![] : Fin 0 → Fin 2))
    (i : (⟨2, ![N, C]⟩ : Shape).Idx) :
    broadcastInDim ⟨2, ![N, C]⟩ (![] : Fin 0 → Fin 2) h0 (constant (F := Ideal) ⟨0, ![]⟩ .f32 0x00000000#32) i
      = Ideal.ofBits .f32 0x00000000#32 :=
  broadcastInDim_apply _ h0 _ i ix0 (fun a => a.elim0)

/-- Bias added to every row, then the rectifier against the zero splat: `rowAct`. -/
theorem maximum_bias_eq_rowAct (A : FVec Ideal ⟨2, ![N, C]⟩ .f32) (b : FVec Ideal ⟨1, ![C]⟩ .f32)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (h0 : (⟨0, ![]⟩ : Shape).BroadcastsInDim ⟨2, ![N, C]⟩ (![] : Fin 0 → Fin 2))
    (hc : (⟨1, ![C]⟩ : Shape).ShapeCasts ⟨2, ![1, C]⟩) :
    maximumf (addf A (broadcastInDim ⟨2, ![N, C]⟩ (![0, 1] : Fin 2 → Fin 2) h2
        (broadcastInDim ⟨2, ![1, C]⟩ (![1] : Fin 1 → Fin 2) h1 b)))
      (broadcastInDim ⟨2, ![N, C]⟩ (![] : Fin 0 → Fin 2) h0 (constant (F := Ideal) ⟨0, ![]⟩ .f32 0x00000000#32))
      = Cert.Layers.rowAct A (shapeCast ⟨2, ![1, C]⟩ b hc) := by
  funext i
  show max (A i + _) _ = max (A i + _) _
  rw [bias_rows_apply b h1 h2 hc i, zero_splat_apply h0 i]

/-- The product with the bias added to every row: `rowAffine`. -/
theorem add_bias_eq_rowAffine (h : FVec Ideal ⟨2, ![N, K]⟩ .f32) (w : FVec Ideal ⟨2, ![K, C]⟩ .f32)
    (b : FVec Ideal ⟨1, ![C]⟩ .f32)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (hc : (⟨1, ![C]⟩ : Shape).ShapeCasts ⟨2, ![1, C]⟩) :
    addf (Cert.LibMatProd.matProd h w) (broadcastInDim ⟨2, ![N, C]⟩ (![0, 1] : Fin 2 → Fin 2) h2
        (broadcastInDim ⟨2, ![1, C]⟩ (![1] : Fin 1 → Fin 2) h1 b))
      = Cert.Layers.rowAffine h w (shapeCast ⟨2, ![1, C]⟩ b hc) := by
  funext i
  show Cert.LibMatProd.matProd h w i + _ = Cert.LibMatProd.matProd h w i + _
  rw [bias_rows_apply b h1 h2 hc i]

end Bias

variable {F : FTy → Type} [FloatOps F]

/-- The edge tables' first part: both endpoint lists with the self loops appended, the degrees, their comparison with zero and their inverse square roots (operations 1–17). -/
def opsA1 : List (HloOp τ sig (Elt F)) :=
  [
    nullary main_v0 (iotaInDim S50000 32 0),
    unary main_arg1 main_v1 ((extractStridedSlice S1x500000 ![0, 0] · slices_S2x500000_S1x500000_0_0) : (⟨S2x500000, .i32⟩ : BufTy).Contents (Elt F) → (⟨S1x500000, .i32⟩ : BufTy).Contents (Elt F)),
    reshape main_v1 main_v2 rfl shapeCasts_S1x500000_S500000,
    binary main_v2 main_v0 main_v3 ((fun a b => Cert.LibConcat.concat2 S550000 0 a b concatenates_S500000_S50000_S550000_d0) : (⟨S500000, .i32⟩ : BufTy).Contents (Elt F) → (⟨S50000, .i32⟩ : BufTy).Contents (Elt F) → (⟨S550000, .i32⟩ : BufTy).Contents (Elt F)),
    unary main_arg1 main_v4 ((extractStridedSlice S1x500000 ![1, 0] · slices_S2x500000_S1x500000_1_0) : (⟨S2x500000, .i32⟩ : BufTy).Contents (Elt F) → (⟨S1x500000, .i32⟩ : BufTy).Contents (Elt F)),
    reshape main_v4 main_v5 rfl shapeCasts_S1x500000_S500000,
    binary main_v5 main_v0 main_v6 ((fun a b => Cert.LibConcat.concat2 S550000 0 a b concatenates_S500000_S50000_S550000_d0) : (⟨S500000, .i32⟩ : BufTy).Contents (Elt F) → (⟨S50000, .i32⟩ : BufTy).Contents (Elt F) → (⟨S550000, .i32⟩ : BufTy).Contents (Elt F)),
    nullary main_cst (constant S_ .f32 0x3F800000#32),
    unary main_cst main_v7 (broadcastInDim S550000 ![] bcast_S_S550000 : (⟨S_, .f32⟩ : BufTy).Contents (Elt F) → (⟨S550000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S550000x1 ![0] bcast_S550000_S550000x1_0 : (⟨S550000, .i32⟩ : BufTy).Contents (Elt F) → (⟨S550000x1, .i32⟩ : BufTy).Contents (Elt F)),
    ternary main_v8 main_v9 main_v7 main_v10 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)) ]

/-- The selection of the inverse square roots where the degree is positive, zero elsewhere (operations 18–21). -/
def opsA1w : List (HloOp τ sig (Elt F)) :=
  [
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- The edge weights: the per-node factor gathered at both (wrapped) endpoints and multiplied (operations 22–40). -/
def opsA2 : List (HloOp τ sig (Elt F)) :=
  [
    nullary main_c (constantI S_ 32 0#32),
    unary main_c main_v15 (broadcastInDim S550000 ![] bcast_S_S550000 : (⟨S_, .i32⟩ : BufTy).Contents (Elt F) → (⟨S550000, .i32⟩ : BufTy).Contents (Elt F)),
    binary main_v3 main_v15 main_v16 (cmpi .slt : (⟨S550000, .i32⟩ : BufTy).Contents (Elt F) → (⟨S550000, .i32⟩ : BufTy).Contents (Elt F) → (⟨S550000, .i1⟩ : BufTy).Contents (Elt F)),
    nullary main_c_3 (constantI S_ 32 50000#32),
    unary main_c_3 main_v17 (broadcastInDim S550000 ![] bcast_S_S550000 : (⟨S_, .i32⟩ : BufTy).Contents (Elt F) → (⟨S550000, .i32⟩ : BufTy).Contents (Elt F)),
    binary main_v3 main_v17 main_v18 (addi : (⟨S550000, .i32⟩ : BufTy).Contents (Elt F) → (⟨S550000, .i32⟩ : BufTy).Contents (Elt F) → (⟨S550000, .i32⟩ : BufTy).Contents (Elt F)),
    ternary main_v16 main_v18 main_v3 main_v19 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v19 main_v20 (broadcastInDim S550000x1 ![0] bcast_S550000_S550000x1_0 : (⟨S550000, .i32⟩ : BufTy).Contents (Elt F) → (⟨S550000x1, .i32⟩ : BufTy).Contents (Elt F)),
    binary main_v14 main_v20 main_v21 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    nullary main_c_4 (constantI S_ 32 0#32),
    unary main_c_4 main_v22 (broadcastInDim S550000 ![] bcast_S_S550000 : (⟨S_, .i32⟩ : BufTy).Contents (Elt F) → (⟨S550000, .i32⟩ : BufTy).Contents (Elt F)),
    binary main_v6 main_v22 main_v23 (cmpi .slt : (⟨S550000, .i32⟩ : BufTy).Contents (Elt F) → (⟨S550000, .i32⟩ : BufTy).Contents (Elt F) → (⟨S550000, .i1⟩ : BufTy).Contents (Elt F)),
    nullary main_c_5 (constantI S_ 32 50000#32),
    unary main_c_5 main_v24 (broadcastInDim S550000 ![] bcast_S_S550000 : (⟨S_, .i32⟩ : BufTy).Contents (Elt F) → (⟨S550000, .i32⟩ : BufTy).Contents (Elt F)),
    binary main_v6 main_v24 main_v25 (addi : (⟨S550000, .i32⟩ : BufTy).Contents (Elt F) → (⟨S550000, .i32⟩ : BufTy).Contents (Elt F) → (⟨S550000, .i32⟩ : BufTy).Contents (Elt F)),
    ternary main_v23 main_v25 main_v6 main_v26 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v26 main_v27 (broadcastInDim S550000x1 ![0] bcast_S550000_S550000x1_0 : (⟨S550000, .i32⟩ : BufTy).Contents (Elt F) → (⟨S550000x1, .i32⟩ : BufTy).Contents (Elt F)),
    binary main_v14 main_v27 main_v28 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    binary main_v21 main_v28 main_v29 (mulf : (⟨S550000, .f32⟩ : BufTy).Contents (Elt F) → (⟨S550000, .f32⟩ : BufTy).Contents (Elt F) → (⟨S550000, .f32⟩ : BufTy).Contents (Elt F)) ]

/-- The first layer's product and aggregation (operations 41–57). -/
def opsB1 : List (HloOp τ sig (Elt F)) :=
  [
    binary main_arg0 main_arg2 main_v30 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c_6 (constantI S_ 32 0#32),
    unary main_c_6 main_v31 (broadcastInDim S550000 ![] bcast_S_S550000 : (⟨S_, .i32⟩ : BufTy).Contents (Elt F) → (⟨S550000, .i32⟩ : BufTy).Contents (Elt F)),
    binary main_v3 main_v31 main_v32 (cmpi .slt : (⟨S550000, .i32⟩ : BufTy).Contents (Elt F) → (⟨S550000, .i32⟩ : BufTy).Contents (Elt F) → (⟨S550000, .i1⟩ : BufTy).Contents (Elt F)),
    nullary main_c_7 (constantI S_ 32 50000#32),
    unary main_c_7 main_v33 (broadcastInDim S550000 ![] bcast_S_S550000 : (⟨S_, .i32⟩ : BufTy).Contents (Elt F) → (⟨S550000, .i32⟩ : BufTy).Contents (Elt F)),
    binary main_v3 main_v33 main_v34 (addi : (⟨S550000, .i32⟩ : BufTy).Contents (Elt F) → (⟨S550000, .i32⟩ : BufTy).Contents (Elt F) → (⟨S550000, .i32⟩ : BufTy).Contents (Elt F)),
    ternary main_v32 main_v34 main_v3 main_v35 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v35 main_v36 (broadcastInDim S550000x1 ![0] bcast_S550000_S550000x1_0 : (⟨S550000, .i32⟩ : BufTy).Contents (Elt F) → (⟨S550000x1, .i32⟩ : BufTy).Contents (Elt F)),
    binary main_v30 main_v36 main_v37 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    unary main_v29 main_v38 (broadcastInDim S550000x1 ![0] bcast_S550000_S550000x1_0 : (⟨S550000, .f32⟩ : BufTy).Contents (Elt F) → (⟨S550000x1, .f32⟩ : BufTy).Contents (Elt F)),
    unary main_v38 main_v39 (broadcastInDim S550000x128 ![0, 1] bcast_S550000x1_S550000x128_0_1 : (⟨S550000x1, .f32⟩ : BufTy).Contents (Elt F) → (⟨S550000x128, .f32⟩ : BufTy).Contents (Elt F)),
    binary main_v37 main_v39 main_v40 (mulf : (⟨S550000x128, .f32⟩ : BufTy).Contents (Elt F) → (⟨S550000x128, .f32⟩ : BufTy).Contents (Elt F) → (⟨S550000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S550000x1 ![0] bcast_S550000_S550000x1_0 : (⟨S550000, .i32⟩ : BufTy).Contents (Elt F) → (⟨S550000x1, .i32⟩ : BufTy).Contents (Elt F)),
    ternary main_v41 main_v42 main_v40 main_v43 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)) ]

/-- The first layer's bias and rectifier (operations 58–63). -/
def opsB2 : List (HloOp τ sig (Elt F)) :=
  [
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- The second layer's product and aggregation (operations 64–80). -/
def opsC1 : List (HloOp τ sig (Elt F)) :=
  [
    binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v49 (broadcastInDim S550000 ![] bcast_S_S550000 : (⟨S_, .i32⟩ : BufTy).Contents (Elt F) → (⟨S550000, .i32⟩ : BufTy).Contents (Elt F)),
    binary main_v3 main_v49 main_v50 (cmpi .slt : (⟨S550000, .i32⟩ : BufTy).Contents (Elt F) → (⟨S550000, .i32⟩ : BufTy).Contents (Elt F) → (⟨S550000, .i1⟩ : BufTy).Contents (Elt F)),
    nullary main_c_10 (constantI S_ 32 50000#32),
    unary main_c_10 main_v51 (broadcastInDim S550000 ![] bcast_S_S550000 : (⟨S_, .i32⟩ : BufTy).Contents (Elt F) → (⟨S550000, .i32⟩ : BufTy).Contents (Elt F)),
    binary main_v3 main_v51 main_v52 (addi : (⟨S550000, .i32⟩ : BufTy).Contents (Elt F) → (⟨S550000, .i32⟩ : BufTy).Contents (Elt F) → (⟨S550000, .i32⟩ : BufTy).Contents (Elt F)),
    ternary main_v50 main_v52 main_v3 main_v53 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v53 main_v54 (broadcastInDim S550000x1 ![0] bcast_S550000_S550000x1_0 : (⟨S550000, .i32⟩ : BufTy).Contents (Elt F) → (⟨S550000x1, .i32⟩ : BufTy).Contents (Elt F)),
    binary main_v48 main_v54 main_v55 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    unary main_v29 main_v56 (broadcastInDim S550000x1 ![0] bcast_S550000_S550000x1_0 : (⟨S550000, .f32⟩ : BufTy).Contents (Elt F) → (⟨S550000x1, .f32⟩ : BufTy).Contents (Elt F)),
    unary main_v56 main_v57 (broadcastInDim S550000x128 ![0, 1] bcast_S550000x1_S550000x128_0_1 : (⟨S550000x1, .f32⟩ : BufTy).Contents (Elt F) → (⟨S550000x128, .f32⟩ : BufTy).Contents (Elt F)),
    binary main_v55 main_v57 main_v58 (mulf : (⟨S550000x128, .f32⟩ : BufTy).Contents (Elt F) → (⟨S550000x128, .f32⟩ : BufTy).Contents (Elt F) → (⟨S550000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S550000x1 ![0] bcast_S550000_S550000x1_0 : (⟨S550000, .i32⟩ : BufTy).Contents (Elt F) → (⟨S550000x1, .i32⟩ : BufTy).Contents (Elt F)),
    ternary main_v59 main_v60 main_v58 main_v61 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)) ]

/-- The second layer's bias and rectifier (operations 81–86). -/
def opsC2 : List (HloOp τ sig (Elt F)) :=
  [
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v64) (TRef.of (T := ⟨S50000x128, .f32⟩) main_call2_v0) (TRef.of (T := ⟨S50000x128, .f32⟩) main_v65) maximumf ]

/-- The decoder: the product and its bias (operations 87–90). -/
def opsD : List (HloOp τ sig (Elt F)) :=
  [
    binary main_v65 main_arg6 main_v66 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg7 main_v67 (broadcastInDim S1x64 ![1] bcast_S64_S1x64_1 : (⟨S64, .f32⟩ : BufTy).Contents (Elt F) → (⟨S1x64, .f32⟩ : BufTy).Contents (Elt F)),
    unary main_v67 main_v68 (broadcastInDim S50000x64 ![0, 1] bcast_S1x64_S50000x64_0_1 : (⟨S1x64, .f32⟩ : BufTy).Contents (Elt F) → (⟨S50000x64, .f32⟩ : BufTy).Contents (Elt F)),
    binary main_v66 main_v68 main_v69 (addf : (⟨S50000x64, .f32⟩ : BufTy).Contents (Elt F) → (⟨S50000x64, .f32⟩ : BufTy).Contents (Elt F) → (⟨S50000x64, .f32⟩ : BufTy).Contents (Elt F)) ]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 8192 in
/-- The reference's 90 operations are the eight stretches in order (each two-piece concatenation written with its
    pieces as arguments). -/
theorem ops_split :
    (ops : List (HloOp τ sig (Elt F))) = opsA1 ++ (opsA1w ++ (opsA2 ++ (opsB1 ++ (opsB2 ++ (opsC1 ++ (opsC2 ++ opsD)))))) := rfl

/-- The program's eight argument buffers. -/
def argRefs : List (Ref sig .tc) :=
  [main_arg0, main_arg1, main_arg2, main_arg3, main_arg4, main_arg5, main_arg6, main_arg7]

/-- No operation of this stretch writes an argument buffer. -/
theorem keepA1 (X : Valuation τ sig (Elt Ideal)) (r : Ref sig .tc) (hr : r ∈ argRefs) :
    after opsA1 X (Proc.devRef .tc r) = X (Proc.devRef .tc r) := by
  simp only [argRefs, List.mem_cons, List.not_mem_nil, or_false] at hr
  rcases hr with rfl | rfl | rfl | rfl | rfl | rfl | rfl | rfl
  all_goals (unfold opsA1; after_results)

/-- No operation of this stretch writes an argument buffer. -/
theorem keepA1w (X : Valuation τ sig (Elt Ideal)) (r : Ref sig .tc) (hr : r ∈ argRefs) :
    after opsA1w X (Proc.devRef .tc r) = X (Proc.devRef .tc r) := by
  simp only [argRefs, List.mem_cons, List.not_mem_nil, or_false] at hr
  rcases hr with rfl | rfl | rfl | rfl | rfl | rfl | rfl | rfl
  all_goals (unfold opsA1w; after_results)

/-- … nor this intermediate one. -/
theorem keepA1w_v3 (X : Valuation τ sig (Elt Ideal)) :
    after opsA1w X (Proc.devRef .tc main_v3) = X (Proc.devRef .tc main_v3) := by
  unfold opsA1w; after_results

/-- … nor this intermediate one. -/
theorem keepA1w_v6 (X : Valuation τ sig (Elt Ideal)) :
    after opsA1w X (Proc.devRef .tc main_v6) = X (Proc.devRef .tc main_v6) := by
  unfold opsA1w; after_results

/-- No operation of this stretch writes an argument buffer. -/
theorem keepA2 (X : Valuation τ sig (Elt Ideal)) (r : Ref sig .tc) (hr : r ∈ argRefs) :
    after opsA2 X (Proc.devRef .tc r) = X (Proc.devRef .tc r) := by
  simp only [argRefs, List.mem_cons, List.not_mem_nil, or_false] at hr
  rcases hr with rfl | rfl | rfl | rfl | rfl | rfl | rfl | rfl
  all_goals (unfold opsA2; after_results)

/-- … nor this intermediate one. -/
theorem keepA2_v3 (X : Valuation τ sig (Elt Ideal)) :
    after opsA2 X (Proc.devRef .tc main_v3) = X (Proc.devRef .tc main_v3) := by
  unfold opsA2; after_results

/-- … nor this intermediate one. -/
theorem keepA2_v6 (X : Valuation τ sig (Elt Ideal)) :
    after opsA2 X (Proc.devRef .tc main_v6) = X (Proc.devRef .tc main_v6) := by
  unfold opsA2; after_results

/-- No operation of this stretch writes an argument buffer. -/
theorem keepB1 (X : Valuation τ sig (Elt Ideal)) (r : Ref sig .tc) (hr : r ∈ argRefs) :
    after opsB1 X (Proc.devRef .tc r) = X (Proc.devRef .tc r) := by
  simp only [argRefs, List.mem_cons, List.not_mem_nil, or_false] at hr
  rcases hr with rfl | rfl | rfl | rfl | rfl | rfl | rfl | rfl
  all_goals (unfold opsB1; after_results)

/-- … nor this intermediate one. -/
theorem keepB1_v3 (X : Valuation τ sig (Elt Ideal)) :
    after opsB1 X (Proc.devRef .tc main_v3) = X (Proc.devRef .tc main_v3) := by
  unfold opsB1; after_results

/-- … nor this intermediate one. -/
theorem keepB1_v6 (X : Valuation τ sig (Elt Ideal)) :
    after opsB1 X (Proc.devRef .tc main_v6) = X (Proc.devRef .tc main_v6) := by
  unfold opsB1; after_results

/-- … nor this intermediate one. -/
theorem keepB1_v29 (X : Valuation τ sig (Elt Ideal)) :
    after opsB1 X (Proc.devRef .tc main_v29) = X (Proc.devRef .tc main_v29) := by
  unfold opsB1; after_results

/-- No operation of this stretch writes an argument buffer. -/
theorem keepB2 (X : Valuation τ sig (Elt Ideal)) (r : Ref sig .tc) (hr : r ∈ argRefs) :
    after opsB2 X (Proc.devRef .tc r) = X (Proc.devRef .tc r) := by
  simp only [argRefs, List.mem_cons, List.not_mem_nil, or_false] at hr
  rcases hr with rfl | rfl | rfl | rfl | rfl | rfl | rfl | rfl
  all_goals (unfold opsB2; after_results)

/-- … nor this intermediate one. -/
theorem keepB2_v3 (X : Valuation τ sig (Elt Ideal)) :
    after opsB2 X (Proc.devRef .tc main_v3) = X (Proc.devRef .tc main_v3) := by
  unfold opsB2; after_results

/-- … nor this intermediate one. -/
theorem keepB2_v6 (X : Valuation τ sig (Elt Ideal)) :
    after opsB2 X (Proc.devRef .tc main_v6) = X (Proc.devRef .tc main_v6) := by
  unfold opsB2; after_results

/-- … nor this intermediate one. -/
theorem keepB2_v29 (X : Valuation τ sig (Elt Ideal)) :
    after opsB2 X (Proc.devRef .tc main_v29) = X (Proc.devRef .tc main_v29) := by
  unfold opsB2; after_results

/-- No operation of this stretch writes an argument buffer. -/
theorem keepC1 (X : Valuation τ sig (Elt Ideal)) (r : Ref sig .tc) (hr : r ∈ argRefs) :
    after opsC1 X (Proc.devRef .tc r) = X (Proc.devRef .tc r) := by
  simp only [argRefs, List.mem_cons, List.not_mem_nil, or_false] at hr
  rcases hr with rfl | rfl | rfl | rfl | rfl | rfl | rfl | rfl
  all_goals (unfold opsC1; after_results)

/-- No operation of this stretch writes an argument buffer. -/
theorem keepC2 (X : Valuation τ sig (Elt Ideal)) (r : Ref sig .tc) (hr : r ∈ argRefs) :
    after opsC2 X (Proc.devRef .tc r) = X (Proc.devRef .tc r) := by
  simp only [argRefs, List.mem_cons, List.not_mem_nil, or_false] at hr
  rcases hr with rfl | rfl | rfl | rfl | rfl | rfl | rfl | rfl
  all_goals (unfold opsC2; after_results)

/-- No operation of this stretch writes an argument buffer. -/
theorem keepD (X : Valuation τ sig (Elt Ideal)) (r : Ref sig .tc) (hr : r ∈ argRefs) :
    after opsD X (Proc.devRef .tc r) = X (Proc.devRef .tc r) := by
  simp only [argRefs, List.mem_cons, List.not_mem_nil, or_false] at hr
  rcases hr with rfl | rfl | rfl | rfl | rfl | rfl | rfl | rfl
  all_goals (unfold opsD; after_results)

/-- … nor this intermediate one. -/
theorem keepD_v65 (X : Valuation τ sig (Elt Ideal)) :
    after opsD X (Proc.devRef .tc main_v65) = X (Proc.devRef .tc main_v65) := by
  unfold opsD; after_results

/-- After the first stretch the source list holds the edges' sources followed by the self loops … -/
theorem a1_src (X : Valuation τ sig (Elt Ideal)) :
    after opsA1 X (Proc.devRef .tc main_v3) = Cert.Gcn.src (X (Proc.devRef .tc main_arg1)) := by
  unfold opsA1
  after_results
  rfl

/-- … the target list the edges' targets followed by the self loops … -/
theorem a1_dst (X : Valuation τ sig (Elt Ideal)) :
    after opsA1 X (Proc.devRef .tc main_v6) = Cert.Gcn.dst (X (Proc.devRef .tc main_arg1)) := by
  unfold opsA1
  after_results
  rfl

/-- … the mask says where the degree is positive … -/
theorem a1_pos (X : Valuation τ sig (Elt Ideal)) :
    after opsA1 X (Proc.devRef .tc main_v12)
      = cmpf .ogt (Cert.Gcn.deg (X (Proc.devRef .tc main_arg1))) (broadcastInDim Cert.KernelIdeal.S50000 ![] Cert.KernelIdeal.Gen.bcast_S_S50000 (constant (F := Ideal) Cert.KernelIdeal.S_ .f32 0x00000000#32)) := by
  unfold opsA1
  after_results
  rfl

/-- … and the inverse square roots of the degrees are taken everywhere. -/
theorem a1_rsq (X : Valuation τ sig (Elt Ideal)) :
    after opsA1 X (Proc.devRef .tc main_v13) = Host.rsqrt (Cert.Gcn.deg (X (Proc.devRef .tc main_arg1))) := by
  unfold opsA1
  after_results
  rfl

/-- The per-node factor: the inverse square root where the degree is positive, zero elsewhere. -/
theorem a1w_dis (X : Valuation τ sig (Elt Ideal)) (e : IVec S2x500000 32)
    (h12 : X (Proc.devRef .tc main_v12) = cmpf .ogt (Cert.Gcn.deg e) (broadcastInDim Cert.KernelIdeal.S50000 ![] Cert.KernelIdeal.Gen.bcast_S_S50000 (constant (F := Ideal) Cert.KernelIdeal.S_ .f32 0x00000000#32)))
    (h13 : X (Proc.devRef .tc main_v13) = Host.rsqrt (Cert.Gcn.deg e)) :
    after opsA1w X (Proc.devRef .tc main_v14) = Cert.Gcn.dis e := by
  unfold opsA1w
  after_results
  simp only [Cert.LibTRef.ofBuf_toBuf]
  show select (X (Proc.devRef .tc main_v12)) (X (Proc.devRef .tc main_v13))
      (broadcastInDim S50000 ![] bcast_S_S50000 (id (constant (F := Ideal) S_ .f32 0x00000000#32))) = _
  rw [h12, h13]
  rfl

set_option maxHeartbeats 2000000 in
/-- The edge weights, from the per-node factor and the two endpoint lists. -/
theorem a2_nrm (X : Valuation τ sig (Elt Ideal)) (e : IVec S2x500000 32)
    (h14 : X (Proc.devRef .tc main_v14) = Cert.Gcn.dis e) (h3 : X (Proc.devRef .tc main_v3) = Cert.Gcn.src e)
    (h6 : X (Proc.devRef .tc main_v6) = Cert.Gcn.dst e) :
    after opsA2 X (Proc.devRef .tc main_v29) = Cert.Gcn.nrm e := by
  unfold opsA2
  after_results
  rw [h14, h3, h6]
  rfl

set_option maxHeartbeats 2000000 in
/-- The first layer's aggregated product. -/
theorem b1_aggr (X : Valuation τ sig (Elt Ideal)) (e : IVec S2x500000 32)
    (x : FVec Ideal S50000x256 .f32) (w : FVec Ideal S256x128 .f32)
    (hx : X (Proc.devRef .tc main_arg0) = x) (hw : X (Proc.devRef .tc main_arg2) = w)
    (h3 : X (Proc.devRef .tc main_v3) = Cert.Gcn.src e) (h6 : X (Proc.devRef .tc main_v6) = Cert.Gcn.dst e)
    (h29 : X (Proc.devRef .tc main_v29) = Cert.Gcn.nrm e) :
    after opsB1 X (Proc.devRef .tc main_v43)
      = Cert.Gcn.aggr (Cert.LibMatProd.matProd (M := 50000) (K := 256) (N := 128) x w) (Cert.Gcn.src e) (Cert.Gcn.dst e)
          (Cert.Gcn.nrm e) := by
  unfold opsB1
  after_results
  rw [hx, hw, h3, h6, h29,
    Cert.LibMatProd.dotGeneral_eq dot_S50000x256_S256x128_S50000x128_1_0_0_1_n_n rfl rfl rfl rfl rfl rfl x w]
  rfl

/-- The first layer's bias and rectifier. -/
theorem b2_act (X : Valuation τ sig (Elt Ideal)) (A : FVec Ideal S50000x128 .f32) (b : FVec Ideal S128 .f32)
    (hA : X (Proc.devRef .tc main_v43) = A) (hb : X (Proc.devRef .tc main_arg3) = b) :
    after opsB2 X (Proc.devRef .tc main_v47)
      = Cert.Layers.rowAct (N := 50000) (C := 128) A (shapeCast S1x128 b Cert.KernelIdeal.Gen.shapeCasts_S128_S1x128) := by
  unfold opsB2
  after_results
  simp only [Cert.LibTRef.ofBuf_toBuf]
  show maximumf (addf (X (Proc.devRef .tc main_v43)) (broadcastInDim S50000x128 ![0, 1] bcast_S1x128_S50000x128_0_1
        (broadcastInDim S1x128 ![1] bcast_S128_S1x128_1 (X (Proc.devRef .tc main_arg3)))))
      (broadcastInDim S50000x128 ![] bcast_S_S50000x128 (constant (F := Ideal) S_ .f32 0x00000000#32)) = _
  rw [hA, hb]
  exact maximum_bias_eq_rowAct (N := 50000) (C := 128) A b _ _ _ _

set_option maxHeartbeats 2000000 in
/-- The second layer's aggregated product. -/
theorem c1_aggr (X : Valuation τ sig (Elt Ideal)) (e : IVec S2x500000 32)
    (x : FVec Ideal S50000x128 .f32) (w : FVec Ideal S128x128 .f32)
    (hx : X (Proc.devRef .tc main_v47) = x) (hw : X (Proc.devRef .tc main_arg4) = w)
    (h3 : X (Proc.devRef .tc main_v3) = Cert.Gcn.src e) (h6 : X (Proc.devRef .tc main_v6) = Cert.Gcn.dst e)
    (h29 : X (Proc.devRef .tc main_v29) = Cert.Gcn.nrm e) :
    after opsC1 X (Proc.devRef .tc main_v61)
      = Cert.Gcn.aggr (Cert.LibMatProd.matProd (M := 50000) (K := 128) (N := 128) x w) (Cert.Gcn.src e) (Cert.Gcn.dst e)
          (Cert.Gcn.nrm e) := by
  unfold opsC1
  after_results
  rw [hx, hw, h3, h6, h29,
    Cert.LibMatProd.dotGeneral_eq dot_S50000x128_S128x128_S50000x128_1_0_0_1_n_n rfl rfl rfl rfl rfl rfl x w]
  rfl

/-- The second layer's bias and rectifier. -/
theorem c2_act (X : Valuation τ sig (Elt Ideal)) (A : FVec Ideal S50000x128 .f32) (b : FVec Ideal S128 .f32)
    (hA : X (Proc.devRef .tc main_v61) = A) (hb : X (Proc.devRef .tc main_arg5) = b) :
    after opsC2 X (Proc.devRef .tc main_v65)
      = Cert.Layers.rowAct (N := 50000) (C := 128) A (shapeCast S1x128 b Cert.KernelIdeal.Gen.shapeCasts_S128_S1x128) := by
  unfold opsC2
  after_results
  simp only [Cert.LibTRef.ofBuf_toBuf]
  show maximumf (addf (X (Proc.devRef .tc main_v61)) (broadcastInDim S50000x128 ![0, 1] bcast_S1x128_S50000x128_0_1
        (broadcastInDim S1x128 ![1] bcast_S128_S1x128_1 (X (Proc.devRef .tc main_arg5)))))
      (broadcastInDim S50000x128 ![] bcast_S_S50000x128 (constant (F := Ideal) S_ .f32 0x00000000#32)) = _
  rw [hA, hb]
  exact maximum_bias_eq_rowAct (N := 50000) (C := 128) A b _ _ _ _

/-- The decoder. -/
theorem d_out (X : Valuation τ sig (Elt Ideal)) (h : FVec Ideal S50000x128 .f32) (w : FVec Ideal S128x64 .f32)
    (b : FVec Ideal S64 .f32)
    (hh : X (Proc.devRef .tc main_v65) = h) (hw : X (Proc.devRef .tc main_arg6) = w) (hb : X (Proc.devRef .tc main_arg7) = b) :
    after opsD X (Proc.devRef .tc main_v69)
      = Cert.Layers.rowAffine (N := 50000) (K := 128) (C := 64) h w
          (shapeCast S1x64 b Cert.KernelIdeal.Gen.shapeCasts_S64_S1x64) := by
  unfold opsD
  after_results
  rw [hh, hw, hb,
    Cert.LibMatProd.dotGeneral_eq dot_S50000x128_S128x64_S50000x64_1_0_0_1_n_n rfl rfl rfl rfl rfl rfl h w]
  exact add_bias_eq_rowAffine (N := 50000) (K := 128) (C := 64) h w b _ _ _

/-! ## The stretches in order

`Y1 V` … `Y7 V` are the buffers' contents after each stretch, from contents `V`; each fact below says what one buffer
holds then, in the vocabulary of the network, from the facts of the stage before. -/

section Stages
variable (V : Valuation τ sig (Elt Ideal))

abbrev Y1 : Valuation τ sig (Elt Ideal) := after opsA1 V
abbrev Y1w : Valuation τ sig (Elt Ideal) := after opsA1w (Y1 V)
abbrev Y2 : Valuation τ sig (Elt Ideal) := after opsA2 (Y1w V)
abbrev Y3 : Valuation τ sig (Elt Ideal) := after opsB1 (Y2 V)
abbrev Y4 : Valuation τ sig (Elt Ideal) := after opsB2 (Y3 V)
abbrev Y5 : Valuation τ sig (Elt Ideal) := after opsC1 (Y4 V)
abbrev Y6 : Valuation τ sig (Elt Ideal) := after opsC2 (Y5 V)
abbrev Y7 : Valuation τ sig (Elt Ideal) := after opsD (Y6 V)

/-- The whole run is the eight stretches in order. -/
theorem after_ops : after ops V = Y7 V := by
  rw [ops_split]
  simp only [after_append]

theorem y1_arg (r : Ref sig .tc) (hr : r ∈ argRefs) : Y1 V (Proc.devRef .tc r) = V (Proc.devRef .tc r) := keepA1 V r hr
theorem y1w_arg (r : Ref sig .tc) (hr : r ∈ argRefs) : Y1w V (Proc.devRef .tc r) = V (Proc.devRef .tc r) :=
  (keepA1w (Y1 V) r hr).trans (y1_arg V r hr)
theorem y2_arg (r : Ref sig .tc) (hr : r ∈ argRefs) : Y2 V (Proc.devRef .tc r) = V (Proc.devRef .tc r) :=
  (keepA2 (Y1w V) r hr).trans (y1w_arg V r hr)
theorem y3_arg (r : Ref sig .tc) (hr : r ∈ argRefs) : Y3 V (Proc.devRef .tc r) = V (Proc.devRef .tc r) :=
  (keepB1 (Y2 V) r hr).trans (y2_arg V r hr)
theorem y4_arg (r : Ref sig .tc) (hr : r ∈ argRefs) : Y4 V (Proc.devRef .tc r) = V (Proc.devRef .tc r) :=
  (keepB2 (Y3 V) r hr).trans (y3_arg V r hr)
theorem y5_arg (r : Ref sig .tc) (hr : r ∈ argRefs) : Y5 V (Proc.devRef .tc r) = V (Proc.devRef .tc r) :=
  (keepC1 (Y4 V) r hr).trans (y4_arg V r hr)
theorem y6_arg (r : Ref sig .tc) (hr : r ∈ argRefs) : Y6 V (Proc.devRef .tc r) = V (Proc.devRef .tc r) :=
  (keepC2 (Y5 V) r hr).trans (y5_arg V r hr)
theorem y7_arg (r : Ref sig .tc) (hr : r ∈ argRefs) : Y7 V (Proc.devRef .tc r) = V (Proc.devRef .tc r) :=
  (keepD (Y6 V) r hr).trans (y6_arg V r hr)

theorem y1w_src : Y1w V (Proc.devRef .tc main_v3) = Cert.Gcn.src (V (Proc.devRef .tc main_arg1)) := (keepA1w_v3 (Y1 V)).trans (a1_src V)
theorem y1w_dst : Y1w V (Proc.devRef .tc main_v6) = Cert.Gcn.dst (V (Proc.devRef .tc main_arg1)) := (keepA1w_v6 (Y1 V)).trans (a1_dst V)
theorem y1w_dis : Y1w V (Proc.devRef .tc main_v14) = Cert.Gcn.dis (V (Proc.devRef .tc main_arg1)) := a1w_dis (Y1 V) _ (a1_pos V) (a1_rsq V)

theorem y2_src : Y2 V (Proc.devRef .tc main_v3) = Cert.Gcn.src (V (Proc.devRef .tc main_arg1)) := (keepA2_v3 (Y1w V)).trans (y1w_src V)
theorem y2_dst : Y2 V (Proc.devRef .tc main_v6) = Cert.Gcn.dst (V (Proc.devRef .tc main_arg1)) := (keepA2_v6 (Y1w V)).trans (y1w_dst V)
theorem y2_nrm : Y2 V (Proc.devRef .tc main_v29) = Cert.Gcn.nrm (V (Proc.devRef .tc main_arg1)) :=
  a2_nrm (Y1w V) _ (y1w_dis V) (y1w_src V) (y1w_dst V)

theorem y3_src : Y3 V (Proc.devRef .tc main_v3) = Cert.Gcn.src (V (Proc.devRef .tc main_arg1)) := (keepB1_v3 (Y2 V)).trans (y2_src V)
theorem y3_dst : Y3 V (Proc.devRef .tc main_v6) = Cert.Gcn.dst (V (Proc.devRef .tc main_arg1)) := (keepB1_v6 (Y2 V)).trans (y2_dst V)
theorem y3_nrm : Y3 V (Proc.devRef .tc main_v29) = Cert.Gcn.nrm (V (Proc.devRef .tc main_arg1)) := (keepB1_v29 (Y2 V)).trans (y2_nrm V)
theorem y3_agg : Y3 V (Proc.devRef .tc main_v43)
    = Cert.Gcn.aggr (Cert.LibMatProd.matProd (M := 50000) (K := 256) (N := 128) (V (Proc.devRef .tc main_arg0)) (V (Proc.devRef .tc main_arg2)))
        (Cert.Gcn.src (V (Proc.devRef .tc main_arg1))) (Cert.Gcn.dst (V (Proc.devRef .tc main_arg1))) (Cert.Gcn.nrm (V (Proc.devRef .tc main_arg1))) :=
  b1_aggr (Y2 V) _ _ _ (y2_arg V main_arg0 (by decide)) (y2_arg V main_arg2 (by decide)) (y2_src V) (y2_dst V) (y2_nrm V)

theorem y4_src : Y4 V (Proc.devRef .tc main_v3) = Cert.Gcn.src (V (Proc.devRef .tc main_arg1)) := (keepB2_v3 (Y3 V)).trans (y3_src V)
theorem y4_dst : Y4 V (Proc.devRef .tc main_v6) = Cert.Gcn.dst (V (Proc.devRef .tc main_arg1)) := (keepB2_v6 (Y3 V)).trans (y3_dst V)
theorem y4_nrm : Y4 V (Proc.devRef .tc main_v29) = Cert.Gcn.nrm (V (Proc.devRef .tc main_arg1)) := (keepB2_v29 (Y3 V)).trans (y3_nrm V)
theorem y4_hidden : Y4 V (Proc.devRef .tc main_v47) = (Cert.Gcn.hidden1 (V (Proc.devRef .tc main_arg0)) (V (Proc.devRef .tc main_arg1)) (V (Proc.devRef .tc main_arg2)) (V (Proc.devRef .tc main_arg3))) :=
  b2_act (Y3 V) _ _ (y3_agg V) (y3_arg V main_arg3 (by decide))

theorem y5_agg : Y5 V (Proc.devRef .tc main_v61)
    = Cert.Gcn.aggr (Cert.LibMatProd.matProd (M := 50000) (K := 128) (N := 128) (Cert.Gcn.hidden1 (V (Proc.devRef .tc main_arg0)) (V (Proc.devRef .tc main_arg1)) (V (Proc.devRef .tc main_arg2)) (V (Proc.devRef .tc main_arg3))) (V (Proc.devRef .tc main_arg4)))
        (Cert.Gcn.src (V (Proc.devRef .tc main_arg1))) (Cert.Gcn.dst (V (Proc.devRef .tc main_arg1))) (Cert.Gcn.nrm (V (Proc.devRef .tc main_arg1))) :=
  c1_aggr (Y4 V) _ _ _ (y4_hidden V) (y4_arg V main_arg4 (by decide)) (y4_src V) (y4_dst V) (y4_nrm V)

theorem y6_hidden : Y6 V (Proc.devRef .tc main_v65) = (Cert.Gcn.hidden2 (V (Proc.devRef .tc main_arg0)) (V (Proc.devRef .tc main_arg1)) (V (Proc.devRef .tc main_arg2)) (V (Proc.devRef .tc main_arg3)) (V (Proc.devRef .tc main_arg4)) (V (Proc.devRef .tc main_arg5))) :=
  c2_act (Y5 V) _ _ (y5_agg V) (y5_arg V main_arg5 (by decide))

theorem y7_hidden : Y7 V (Proc.devRef .tc main_v65) = (Cert.Gcn.hidden2 (V (Proc.devRef .tc main_arg0)) (V (Proc.devRef .tc main_arg1)) (V (Proc.devRef .tc main_arg2)) (V (Proc.devRef .tc main_arg3)) (V (Proc.devRef .tc main_arg4)) (V (Proc.devRef .tc main_arg5))) := (keepD_v65 (Y6 V)).trans (y6_hidden V)
theorem y7_out : Y7 V (Proc.devRef .tc main_v69) = (Cert.Gcn.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) :=
  d_out (Y6 V) _ _ _ (y6_hidden V) (y6_arg V main_arg6 (by decide)) (y6_arg V main_arg7 (by decide))

end Stages

/-- On every device, from any memory with zero counters: every weakly fair execution of the reference terminates with
    its first result buffer at the network's decoded output, its second at the second hidden layer, and its eight
    argument buffers as they were. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread Cert.ReferenceIdeal.nD Cert.ReferenceIdeal.τ).loc Cert.ReferenceIdeal.main_v69)
          = Cert.Gcn.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
        ∧ r.2.mem ((c.tc : Thread Cert.ReferenceIdeal.nD Cert.ReferenceIdeal.τ).loc Cert.ReferenceIdeal.main_v65)
          = Cert.Gcn.hidden2 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7) :=
  (θ_run (Cert.ReferenceIdeal.defs (F := Ideal)) _ _).mono (fun r h c => by
    have hV := after_ops (launchContents m c)
    refine ⟨(h c main_v69).trans ?_, (h c main_v65).trans ?_, (h c main_arg0).trans ?_,
      (h c main_arg1).trans ?_,
      (h c main_arg2).trans ?_,
      (h c main_arg3).trans ?_,
      (h c main_arg4).trans ?_,
      (h c main_arg5).trans ?_,
      (h c main_arg6).trans ?_,
      (h c main_arg7).trans ?_⟩
    · rw [hV]; exact y7_out _
    · rw [hV]; exact y7_hidden _
    · rw [hV]; exact y7_arg _ main_arg0 (by decide)
    · rw [hV]; exact y7_arg _ main_arg1 (by decide)
    · rw [hV]; exact y7_arg _ main_arg2 (by decide)
    · rw [hV]; exact y7_arg _ main_arg3 (by decide)
    · rw [hV]; exact y7_arg _ main_arg4 (by decide)
    · rw [hV]; exact y7_arg _ main_arg5 (by decide)
    · rw [hV]; exact y7_arg _ main_arg6 (by decide)
    · rw [hV]; exact y7_arg _ main_arg7 (by decide))
    (run_fold (F := Ideal) m ρ)

end Cert.ReferenceIdeal.RefValue

end
-- ==== Proof.lean ====
/-
  A two-layer graph-convolution network with a linear decoder: the tiled program against the plain one.

  Both programs build the same edge tables from the edge list with the same host operations (self loops appended,
  degrees, their inverse square roots, the edge weights), and aggregate over the edges with the same gather and
  scatter-add. They differ only in the dense pieces. The tiled program computes each dense product x · W, the bias
  and rectifier after each aggregation, and the decoder h · Wd + bias, in ten row tiles of 5000 nodes, rounding the
  factors of a product to a narrower float format on the way into the matrix unit; the plain program computes the
  same pieces whole. On the extended reals a change of float format is the identity, the matrix unit's product into a
  zero accumulator and the host's dot_general are both the plain sum over the contracted coordinate, and ten row
  tiles of a row-wise function are the function: so both programs end at the same two functions of the eight
  arguments, `Cert.Gcn.out` and `Cert.Gcn.hidden2`. No law of arithmetic is used that could fail at an infinity — only
  re-indexing of sums and of rows — so the precondition that the inputs are finite is never opened.

  The three frames are the runs with the results dropped; the idealization rewrote nothing, so it preserves
  trivially.
-/
import proofs.«139841_j77008763617440_1_alg».proof.Defs
import proofs.«139841_j77008763617440_1_alg».proof.Proof.Gen.Kernel
import proofs.«139841_j77008763617440_1_alg».proof.Proof.Gen.Kernel.Frame
import proofs.«139841_j77008763617440_1_alg».proof.Proof.Gen.KernelIdeal
import proofs.«139841_j77008763617440_1_alg».proof.Proof.Gen.KernelIdeal.Frame
import proofs.«139841_j77008763617440_1_alg».proof.Proof.Gen.ReferenceIdeal
import proofs.«139841_j77008763617440_1_alg».proof.Proof.Gen.Pre_finite_inputs
import proofs.«139841_j77008763617440_1_alg».proof.Proof.KernelRun
import proofs.«139841_j77008763617440_1_alg».proof.Proof.AtReturn
import proofs.«139841_j77008763617440_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.RefValue.run m ρ)

/-- Both idealized programs end with the decoder's output and the second hidden layer at the same functions of
    arguments that agree. -/
theorem algebraic : Cert.algebraic_KernelIdeal_ReferenceIdeal := by
  intro m ρ m' ρ' _ hagree
  refine ⟨fun c => Cert.Gcn.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => Cert.Gcn.hidden2
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    ?_, ?_⟩
  · exact (θ_run Cert.KernelIdeal.defs _ _).mono
      (fun _ h c => ⟨(h c).1.trans (Cert.KernelIdeal.Chain.K_v63 m ρ c),
        (h c).2.1.trans (Cert.KernelIdeal.Chain.K_v61 m ρ c), (h c).2.2⟩)
      (Cert.KernelIdeal.Named.run m ρ)
  · refine (θ_run Cert.ReferenceIdeal.defs _ _).mono (fun _ h c => ⟨?_, ?_, (h c).2.2⟩)
      (Cert.ReferenceIdeal.RefValue.run m' ρ')
    · rw [(h c).1, (hagree c).1, (hagree c).2.1, (hagree c).2.2.1, (hagree c).2.2.2.1, (hagree c).2.2.2.2.1,
        (hagree c).2.2.2.2.2.1, (hagree c).2.2.2.2.2.2.1, (hagree c).2.2.2.2.2.2.2]
    · rw [(h c).2.1, (hagree c).1, (hagree c).2.1, (hagree c).2.2.1, (hagree c).2.2.2.1, (hagree c).2.2.2.2.1,
        (hagree c).2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
